-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S512x128 : Shape := ⟨2, ![512, 128]⟩
abbrev S512x1 : Shape := ⟨2, ![512, 1]⟩
abbrev S1024x128 : Shape := ⟨2, ![1024, 128]⟩
abbrev S1x1024 : Shape := ⟨2, ![1, 1024]⟩
abbrev S512x1024 : Shape := ⟨2, ![512, 1024]⟩
abbrev S512 : Shape := ⟨1, ![512]⟩

abbrev nBuf : Space → Nat
  | .hbm => 15
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x1, .i32⟩
  | .hbm, ⟨9, _⟩ => ⟨S1x8192, .i32⟩
  | .hbm, ⟨10, _⟩ => ⟨S8192x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S512x1, .f32⟩
  | .local _ .vmem, ⟨4, _⟩ => ⟨S512x1, .f32⟩
  | .local _ .vmem, ⟨5, _⟩ => ⟨S1x8192, .f32⟩
  | .local _ .vmem, ⟨6, _⟩ => ⟨S512x1, .i32⟩
  | .local _ .vmem, ⟨7, _⟩ => ⟨S512x1, .i32⟩
  | .local _ .vmem, ⟨8, _⟩ => ⟨S1x8192, .i32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v7 : Index := Scalar.indexCast v4
  let c0_2 : Index := 0#32
  ![v7.toNat, 0]
def k0_off2 (i : grid0.Coords) : Fin 2 → Nat :=
  let c0_5 : Index := 0#32
  let arg1 : BitVec 32 := BitVec.ofNat 32 (i 1).val
  let c1024_i32 : BitVec 32 := 1024#32
  let v3 : BitVec 32 := Scalar.muli arg1 c1024_i32
  let v4 : BitVec 32 := v3
  let v12 : Index := Scalar.indexCast v4
  ![0, v12.toNat]
def k0_cond2 (i : grid0.Coords) : BitVec 1 :=
  let arg1 : BitVec 32 := BitVec.ofNat 32 (i 1).val
  let c7_i32 : BitVec 32 := 7#32
  let v66 : BitVec 1 := Scalar.cmpi .eq arg1 c7_i32
  let v67 : BitVec 32 := Scalar.extui v66
  let c0_i32_26 : BitVec 32 := 0#32
  let v68 : BitVec 1 := Scalar.cmpi .ne v67 c0_i32_26
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x8192 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  reducesTo_S8192x128_S8192_d1 : S8192x128.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  h_S1024x128 : 0 < S1024x128.numel
  shapeCasts_S1024x128_S1024x128 : S1024x128.ShapeCasts S1024x128
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  iota_S512x1_d0_w32 : S512x1.Iotas .tc 32 [0]
  iota_S1x1024_d1_w32 : S1x1024.Iotas .tc 32 [1]
  reduces_S512x1024_S512 : S512x1024.Reduces [1] S512
  shapeCasts_S512_S512x1 : S512.ShapeCasts S512x1
  reducesTo_S8192x1_S_d0_1 : S8192x1.ReducesTo [0, 1] S_
  dot_S512x128_S1024x128_S512x1024_1_1_0_0_n_n_wf : DotDims.WF S512x128 S1024x128 S512x1024 [1] [1] [0] [0] [] []
  hrank0 : 0 < grid0.rank
  k0_mult1_dvd : ∀ i : grid0.Coords, 128 ∣ (k0_mult1 i).toNat
  k0_off1_inb : ∀ i : grid0.Coords, ∀ a, (k0_off1 i) a + S1024x128.size a ≤ S8192x128.size a
  k0_off2_inb : ∀ i : grid0.Coords, ∀ a, (k0_off2 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .bf16 = 32 ∨ (Rect.block (s := S8192x128) S512x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .i32 = 32 ∨ (Rect.block (s := S8192x1) S512x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .i32 = 32 ∨ (Rect.block (s := S1x8192) S1x8192.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S8192x1.size a
  hwx0_6 : ∀ i : grid0.Coords, EltTy.bits .f32 = 32 ∨ (Rect.block (s := S8192x1) S512x1.size (cc0_transform_6 i) (hinb0_6 i)).WholeWords (EltTy.packing .f32)

variable [Facts₀]

def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S128x8192, .f32⟩
  | .hbm, ⟨6, _⟩ => ⟨S8192x8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x1, .i32⟩
  | .hbm, ⟨24, _⟩ => ⟨S1x8192, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8192x8192, .i32⟩
  | .hbm, ⟨29, _⟩ => ⟨S8192x8192, .i32⟩
  | .hbm, ⟨30, _⟩ => ⟨S_, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S8192x8192, .i1⟩
  | .hbm, ⟨35, _⟩ => ⟨S8192x8192, .i1⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Base.lean ====
/-
  What the three runs of the kernel body share. The grid is 16 row blocks by 8 column blocks, the column index
  moving fastest: point t is row block t / 8 and column block t % 8. The body resets its two running columns
  (the largest same-label distance and the smallest other-label distance seen so far, per row) at column block 0,
  updates them at every column block, and stores the hinge into the output block at column block 7 only.
  Here: the two branch conditions decided over the grid, where the output window is idle, and names for the
  staging memrefs and the two scratch columns.
-/
import proofs.«151407_j52183852646786_2_alg».proof.Proof.Gen.Kernel.Launch
import proofs.«151407_j52183852646786_2_alg».proof.Proof.Gen.Kernel.Skeleton
import proofs.«151407_j52183852646786_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reset branch is taken: the column block is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The hinge branch is taken: the column block is 7, the last. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The six input windows are never idle; the output window is idle exactly off the last column block, and is
    written back exactly there. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-- Each window's current staging memref at point t, as the pipeline passes it to the body, and its wholeness. -/
abbrev ms0_0 (t : Fin cfg0.N) : Memref sig .tc .vmem S512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8192 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- The two scratch columns: the running largest same-label distance, the running smallest other-label distance. -/
abbrev scM0_0 : Memref sig .tc .vmem S512x1 .f32 := Memref.whole cc0_scratch0
abbrev scM0_1 : Memref sig .tc .vmem S512x1 .f32 := Memref.whole cc0_scratch1

/-- What the launch hands the region besides the windows: the two scratch columns at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.K.Step.lean ====
/-
  One grid point's arithmetic as pure functions of what the body loads. At a point with row block i 0 and column
  block i 1 the body reads its 512 rows of embeddings, squared norms and labels whole, and of the three resident
  operands (all 8192 embeddings, squared norms, labels) the 1024 columns starting at 1024 * (i 1). From them it
  forms the 512 x 1024 tile of distances and the tile of label agreements, and folds each row of the tile into the
  two running columns: the largest distance to a different row of the same label, the smallest distance to a row
  of another label. At the last column block the hinge of the two columns is the output block.
-/
import proofs.«151407_j52183852646786_2_alg».proof.Proof.Gen.Kernel.Skeleton
import Idealize.ShloMosaic.Lib.Pipeline.FrameBody

noncomputable section

namespace Cert.Kernel.Hand

open Idealize.ShloMosaic Idealize.SL.Sem Cert.Kernel Cert.Kernel.Gen

variable {F : FTy → Type} [FloatOps F]

/-- The point's 1024 columns of the resident embeddings. -/
def colE (i : grid0.Coords) (x3 : Vec F S8192x128 .bf16) : Vec F S1024x128 .bf16 :=
  View.ld (Val := Elt F) x3 (Rect.unit (s := S8192x128) (k0_off1 i) S1024x128.size (k0_off1_inb i))
/-- The point's 1024 entries of the resident squared norms. -/
def colSq (i : grid0.Coords) (x5 : Vec F S1x8192 .f32) : Vec F S1x1024 .f32 :=
  View.ld (Val := Elt F) x5 (Rect.unit (s := S1x8192) (k0_off2 i) S1x1024.size (k0_off2_inb i))
/-- The point's 1024 entries of the resident labels. -/
def colL (i : grid0.Coords) (x7 : Vec F S1x8192 .i32) : Vec F S1x1024 .i32 :=
  View.ld (Val := Elt F) x7 (Rect.unit (s := S1x8192) (k0_off2 i) S1x1024.size (k0_off2_inb i))

/-- The tile of distances between the point's rows and columns. -/
def tile (i : grid0.Coords) (x2 : Vec F S512x128 .bf16) (x3 : Vec F S8192x128 .bf16) (x4 : Vec F S512x1 .f32) (x5 : Vec F S1x8192 .f32) :
    FVec F S512x1024 .f32 := k0_pay6 x2 (colE i x3) x4 (colSq i x5)
/-- The tile of label agreements. -/
def same (i : grid0.Coords) (x6 : Vec F S512x1 .i32) (x7 : Vec F S1x8192 .i32) : IVec S512x1024 1 := k0_pay7 x6 (colL i x7)

/-- The running largest same-label distance after the point, from the column before it. -/
def stepPos (i : grid0.Coords) (x2 : Vec F S512x128 .bf16) (x3 : Vec F S8192x128 .bf16) (x4 : Vec F S512x1 .f32) (x5 : Vec F S1x8192 .f32)
    (x6 : Vec F S512x1 .i32) (x7 : Vec F S1x8192 .i32) (prev : Vec F S512x1 .f32) : Vec F S512x1 .f32 :=
  k0_pay1 (k0_mult1 i) (tile i x2 x3 x4 x5) (same i x6 x7) (k0_pay8 i) (iota .tc S1x1024 32 [1] iota_S1x1024_d1_w32) prev
/-- The running smallest other-label distance after the point, from the column before it. -/
def stepNeg (i : grid0.Coords) (x2 : Vec F S512x128 .bf16) (x3 : Vec F S8192x128 .bf16) (x4 : Vec F S512x1 .f32) (x5 : Vec F S1x8192 .f32)
    (x6 : Vec F S512x1 .i32) (x7 : Vec F S1x8192 .i32) (prev : Vec F S512x1 .f32) : Vec F S512x1 .f32 :=
  k0_pay2 (tile i x2 x3 x4 x5) (same i x6 x7) prev

/-- The zero offsets, however spelt. -/
theorem hz2 : (![0, 0] : Fin 2 → Nat) = fun _ => 0 := by funext a; fin_cases a <;> rfl

end Cert.Kernel.Hand

end
-- ==== Proof.K.Data.lean ====
/-
  The proof data of the one pipeline. Point t (row block t / 8, column block t % 8) finds every input window's
  staging buffer at the window's block of its array, as the region finds the arrays. The two running columns after
  point t are defined by recursion on t: at a first column block they are the step of the reset values, elsewhere
  the step of what point t - 1 left. The output block after point t is the hinge of the two columns after t; it is
  written back at the last column blocks only, and the window is idle elsewhere. The region's invariant names the
  two columns from the second point on.
-/
import proofs.«151407_j52183852646786_2_alg».proof.Proof.K.Base
import proofs.«151407_j52183852646786_2_alg».proof.Proof.K.Step

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffer contents when the region is entered: after the eight host operations before it. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One point's step of the pair of running columns. -/
def stepAt (c : Dev nD) (t : Fin cfg0.N) (prev : Vec F S512x1 .f32 × Vec F S512x1 .f32) : Vec F S512x1 .f32 × Vec F S512x1 .f32 :=
  (stepPos (grid0.coords t) (iblk m c 0 t) (iblk m c 1 t) (iblk m c 2 t) (iblk m c 3 t) (iblk m c 4 t) (iblk m c 5 t) prev.1,
   stepNeg (grid0.coords t) (iblk m c 0 t) (iblk m c 1 t) (iblk m c 2 t) (iblk m c 3 t) (iblk m c 4 t) (iblk m c 5 t) prev.2)

/-- The pair of running columns after point n. -/
def scrAt (c : Dev nD) : (n : ℕ) → n < cfg0.N → Vec F S512x1 .f32 × Vec F S512x1 .f32
  | 0, hn => stepAt m c ⟨0, hn⟩ (k0_pay4, k0_pay5)
  | n + 1, hn => stepAt m c ⟨n + 1, hn⟩ (if (n + 1) % 8 = 0 then (k0_pay4, k0_pay5) else scrAt c n (Nat.lt_of_succ_lt hn))

theorem scrAt_reset (c : Dev nD) (t : Fin cfg0.N) (h : t.val % 8 = 0) :
    scrAt m c t.val t.isLt = stepAt m c t (k0_pay4, k0_pay5) := by
  obtain ⟨n, hn⟩ := t
  cases n with
  | zero => rfl
  | succ n => show stepAt m c _ (if (n + 1) % 8 = 0 then _ else _) = _; rw [if_pos h]

theorem scrAt_step (c : Dev nD) (t : Fin cfg0.N) (h : ¬t.val % 8 = 0) :
    scrAt m c t.val t.isLt = stepAt m c t (scrAt m c (t.val - 1) (Nat.lt_of_le_of_lt (Nat.sub_le _ _) t.isLt)) := by
  obtain ⟨n, hn⟩ := t
  cases n with
  | zero => exact absurd (Nat.zero_mod _) h
  | succ n => show stepAt m c _ (if (n + 1) % 8 = 0 then _ else _) = _; rw [if_neg h]; rfl

/-- The global row of local row p of the row block of point t. -/
def rowOf (t : Fin cfg0.N) (p : Fin 512) : Fin 8192 :=
  ⟨512 * (t.val / 8) + p.val, by have h := t.isLt; have hN : cfg0.N = 128 := N_0; have := p.isLt; omega⟩

/-- The output block after point t: the hinge of the two columns after t. -/
def outAt (c : Dev nD) (t : Fin cfg0.N) : Vec F S512x1 .f32 :=
  k0_pay3 (scrAt m c t.val t.isLt).1 (scrAt m c t.val t.isLt).2

/-- The region's invariant before position n: before the first point the two scratch columns at anything;
    afterwards at what the point before left. The generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((scrAt m c n hn).1) ∗ owns (c : Thread nD τ) scM0_1 fullShare ((scrAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scrAt m c n hn).1) ∗ owns (c : Thread nD τ) scM0_1 fullShare ((scrAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scrAt m c (n - 1) (by omega)).1) ∗ owns (c : Thread nD τ) scM0_1 fullShare ((scrAt m c (n - 1) (by omega)).2)) ∗ (∃ r, prngReg c r)) := by
  cases n with
  | zero => exact absurd rfl hz
  | succ n => rfl

/-- The proof data: the arrays as the region finds them; after the body each input's buffer at its block, the
    output's at the hinge of the columns; the two windows on the one array of embeddings each hold half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

end Cert.Kernel.Hand

end
-- ==== Proof.K.RunA.lean ====
/-
  The body at a point of the first column block: the reset branch is taken and the hinge branch is not. The two running columns, whatever they held, are reset (to 0 and to +inf) and then stepped; the output buffer is not touched.
-/
import proofs.«151407_j52183852646786_2_alg».proof.Proof.K.Base
import proofs.«151407_j52183852646786_2_alg».proof.Proof.K.Step
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_A (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x8192 .f32) (harg5 : arg5.IsWhole) (arg6 : Memref sig .tc .vmem S512x1 .i32) (harg6 : arg6.IsWhole) (arg7 : Memref sig .tc .vmem S1x8192 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x2 : Vec F S512x128 .bf16) (x3 : Vec F S8192x128 .bf16) (x4 : Vec F S512x1 .f32) (x5 : Vec F S1x8192 .f32) (x6 : Vec F S512x1 .i32) (x7 : Vec F S1x8192 .i32) (xi8 : Vec F S512x1 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare xi8 ∗ (∃ d, owns (c : Thread nD τ) arg9 fullShare d) ∗ (∃ d, owns (c : Thread nD τ) arg10 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare xi8 ∗ owns (c : Thread nD τ) arg9 fullShare (stepPos i x2 x3 x4 x5 x6 x7 k0_pay4) ∗ owns (c : Thread nD τ) arg10 fullShare (stepNeg i x2 x3 x4 x5 x6 x7 k0_pay5)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10) K := by
  simp only [cc0__triplet_kernel_eq_skeleton]; unfold cc0__triplet_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7
  obtain rfl := harg8.eq_unread hf8
  sl_exec (disch := first | exact hc0 | exact hc1)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    swap; · iexact H9
    ipureintro
    sl_unfold_run_names
    rw [View.read_writes_eq_canon _ _ _ (fun y => ⟨_, List.mem_cons_self, View.mem_set_unit_zero hz2 inb_S512x1_S512x1_0_0 y⟩), View.canon_cons_unit_zero hz2]
    simp only [View.readAt_eq_ld, harg2.read_unread, harg3.read_unread, harg4.read_unread, harg5.read_unread, harg6.read_unread, harg7.read_unread, harg8.read_unread, harg9.read_unread, harg10.read_unread, View.ld_unit_zero (S := S512x128) hz2 inb_S512x128_S512x128_0_0, View.ld_unit_zero (S := S512x1) hz2 inb_S512x1_S512x1_0_0, View.readCov_unit_zero (S := S512x1) _ hz2 inb_S512x1_S512x1_0_0]
    rfl
  · iexists _; isplitr
    swap; · iexact H10
    ipureintro
    sl_unfold_run_names
    rw [View.read_writes_eq_canon _ _ _ (fun y => ⟨_, List.mem_cons_self, View.mem_set_unit_zero hz2 inb_S512x1_S512x1_0_0 y⟩), View.canon_cons_unit_zero hz2]
    simp only [View.readAt_eq_ld, harg2.read_unread, harg3.read_unread, harg4.read_unread, harg5.read_unread, harg6.read_unread, harg7.read_unread, harg8.read_unread, harg9.read_unread, harg10.read_unread, View.ld_unit_zero (S := S512x128) hz2 inb_S512x128_S512x128_0_0, View.ld_unit_zero (S := S512x1) hz2 inb_S512x1_S512x1_0_0, View.readCov_unit_zero (S := S512x1) _ hz2 inb_S512x1_S512x1_0_0]
    rfl

end Cert.Kernel.Hand

end
-- ==== Proof.K.RunB.lean ====
/-
  The body at a point whose column block is neither the first nor the last: neither branch is taken. The six input buffers are read and left as found, the output buffer is not touched, and each running column is replaced by its step from what the point before left.
-/
import proofs.«151407_j52183852646786_2_alg».proof.Proof.K.Base
import proofs.«151407_j52183852646786_2_alg».proof.Proof.K.Step
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_B (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x8192 .f32) (harg5 : arg5.IsWhole) (arg6 : Memref sig .tc .vmem S512x1 .i32) (harg6 : arg6.IsWhole) (arg7 : Memref sig .tc .vmem S1x8192 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x2 : Vec F S512x128 .bf16) (x3 : Vec F S8192x128 .bf16) (x4 : Vec F S512x1 .f32) (x5 : Vec F S1x8192 .f32) (x6 : Vec F S512x1 .i32) (x7 : Vec F S1x8192 .i32) (xi8 xs0 xs1 : Vec F S512x1 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare xi8 ∗ owns (c : Thread nD τ) arg9 fullShare xs0 ∗ owns (c : Thread nD τ) arg10 fullShare xs1
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare xi8 ∗ owns (c : Thread nD τ) arg9 fullShare (stepPos i x2 x3 x4 x5 x6 x7 xs0) ∗ owns (c : Thread nD τ) arg10 fullShare (stepNeg i x2 x3 x4 x5 x6 x7 xs1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10) K := by
  simp only [cc0__triplet_kernel_eq_skeleton]; unfold cc0__triplet_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    swap; · iexact H9
    ipureintro
    sl_unfold_run_names
    rw [View.read_writes_eq_canon _ _ _ (fun y => ⟨_, List.mem_cons_self, View.mem_set_unit_zero hz2 inb_S512x1_S512x1_0_0 y⟩), View.canon_cons_unit_zero hz2]
    simp only [View.readAt_eq_ld, harg2.read_unread, harg3.read_unread, harg4.read_unread, harg5.read_unread, harg6.read_unread, harg7.read_unread, harg8.read_unread, harg9.read_unread, harg10.read_unread, View.ld_unit_zero (S := S512x128) hz2 inb_S512x128_S512x128_0_0, View.ld_unit_zero (S := S512x1) hz2 inb_S512x1_S512x1_0_0, View.readCov_unit_zero (S := S512x1) _ hz2 inb_S512x1_S512x1_0_0]
    rfl
  · iexists _; isplitr
    swap; · iexact H10
    ipureintro
    sl_unfold_run_names
    rw [View.read_writes_eq_canon _ _ _ (fun y => ⟨_, List.mem_cons_self, View.mem_set_unit_zero hz2 inb_S512x1_S512x1_0_0 y⟩), View.canon_cons_unit_zero hz2]
    simp only [View.readAt_eq_ld, harg2.read_unread, harg3.read_unread, harg4.read_unread, harg5.read_unread, harg6.read_unread, harg7.read_unread, harg8.read_unread, harg9.read_unread, harg10.read_unread, View.ld_unit_zero (S := S512x128) hz2 inb_S512x128_S512x128_0_0, View.ld_unit_zero (S := S512x1) hz2 inb_S512x1_S512x1_0_0, View.readCov_unit_zero (S := S512x1) _ hz2 inb_S512x1_S512x1_0_0]
    rfl

end Cert.Kernel.Hand

end
-- ==== Proof.K.RunC.lean ====
/-
  The body at a point of the last column block: the reset branch is not taken and the hinge branch is. Each running column is stepped from what the point before left, and the output buffer, whatever it held, receives the hinge of the two stepped columns.
-/
import proofs.«151407_j52183852646786_2_alg».proof.Proof.K.Base
import proofs.«151407_j52183852646786_2_alg».proof.Proof.K.Step
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_C (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x8192 .f32) (harg5 : arg5.IsWhole) (arg6 : Memref sig .tc .vmem S512x1 .i32) (harg6 : arg6.IsWhole) (arg7 : Memref sig .tc .vmem S1x8192 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x2 : Vec F S512x128 .bf16) (x3 : Vec F S8192x128 .bf16) (x4 : Vec F S512x1 .f32) (x5 : Vec F S1x8192 .f32) (x6 : Vec F S512x1 .i32) (x7 : Vec F S1x8192 .i32) (xs0 xs1 : Vec F S512x1 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ owns (c : Thread nD τ) arg9 fullShare xs0 ∗ owns (c : Thread nD τ) arg10 fullShare xs1
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (k0_pay3 (stepPos i x2 x3 x4 x5 x6 x7 xs0) (stepNeg i x2 x3 x4 x5 x6 x7 xs1)) ∗ owns (c : Thread nD τ) arg9 fullShare (stepPos i x2 x3 x4 x5 x6 x7 xs0) ∗ owns (c : Thread nD τ) arg10 fullShare (stepNeg i x2 x3 x4 x5 x6 x7 xs1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10) K := by
  simp only [cc0__triplet_kernel_eq_skeleton]; unfold cc0__triplet_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7
  obtain rfl := harg9.eq_unread hf9; obtain rfl := harg10.eq_unread hf10
  sl_exec (disch := first | exact hc0 | exact hc1)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    swap; · iexact H8
    ipureintro
    sl_unfold_run_names
    rw [View.read_writes_eq_canon _ _ _ (fun y => ⟨_, List.mem_cons_self, View.mem_set_unit_zero hz2 inb_S512x1_S512x1_0_0 y⟩), View.canon_cons_unit_zero hz2]
    simp only [View.readAt_eq_ld, harg2.read_unread, harg3.read_unread, harg4.read_unread, harg5.read_unread, harg6.read_unread, harg7.read_unread, harg8.read_unread, harg9.read_unread, harg10.read_unread, View.ld_unit_zero (S := S512x128) hz2 inb_S512x128_S512x128_0_0, View.ld_unit_zero (S := S512x1) hz2 inb_S512x1_S512x1_0_0, View.readCov_unit_zero (S := S512x1) _ hz2 inb_S512x1_S512x1_0_0]
    rfl
  isplitl [H9]
  · iexists _; isplitr
    swap; · iexact H9
    ipureintro
    sl_unfold_run_names
    rw [View.read_writes_eq_canon _ _ _ (fun y => ⟨_, List.mem_cons_self, View.mem_set_unit_zero hz2 inb_S512x1_S512x1_0_0 y⟩), View.canon_cons_unit_zero hz2]
    simp only [View.readAt_eq_ld, harg2.read_unread, harg3.read_unread, harg4.read_unread, harg5.read_unread, harg6.read_unread, harg7.read_unread, harg8.read_unread, harg9.read_unread, harg10.read_unread, View.ld_unit_zero (S := S512x128) hz2 inb_S512x128_S512x128_0_0, View.ld_unit_zero (S := S512x1) hz2 inb_S512x1_S512x1_0_0, View.readCov_unit_zero (S := S512x1) _ hz2 inb_S512x1_S512x1_0_0]
    rfl
  · iexists _; isplitr
    swap; · iexact H10
    ipureintro
    sl_unfold_run_names
    rw [View.read_writes_eq_canon _ _ _ (fun y => ⟨_, List.mem_cons_self, View.mem_set_unit_zero hz2 inb_S512x1_S512x1_0_0 y⟩), View.canon_cons_unit_zero hz2]
    simp only [View.readAt_eq_ld, harg2.read_unread, harg3.read_unread, harg4.read_unread, harg5.read_unread, harg6.read_unread, harg7.read_unread, harg8.read_unread, harg9.read_unread, harg10.read_unread, View.ld_unit_zero (S := S512x128) hz2 inb_S512x128_S512x128_0_0, View.ld_unit_zero (S := S512x1) hz2 inb_S512x1_S512x1_0_0, View.readCov_unit_zero (S := S512x1) _ hz2 inb_S512x1_S512x1_0_0]
    rfl

end Cert.Kernel.Hand

end
-- ==== Proof.K.Body.lean ====
/-
  The body obligation. At every point the six input buffers hold their blocks; which of the body's two branches run
  is decided by the column block: the first resets the running columns (and they may hold anything before it), the
  last writes the hinge into the output buffer (which may hold anything before it), and in between neither happens
  and the output buffer is handed back as found. In each case the running columns come back at the step the proof
  data names.
-/
import proofs.«151407_j52183852646786_2_alg».proof.Proof.K.Data
import proofs.«151407_j52183852646786_2_alg».proof.Proof.K.RunA
import proofs.«151407_j52183852646786_2_alg».proof.Proof.K.RunB
import proofs.«151407_j52183852646786_2_alg».proof.Proof.K.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 128 := lt_of_lt_of_eq t.isLt (show cfg0.N = 128 from N_0)
  by_cases h0 : t.val % 8 = 0
  · have h1 : ¬t.val % 8 = 7 := by omega
    rw [Dat.leavesExact_idle (dats m 0 c) 6 t (idleAt0_6 t (fun h => h1 ((hcond0_1 t).mp h))) (noFlush0_6 t (fun h => h1 ((hcond0_1 t).mp h)))]
    rw [scrAt_reset m c t h0]
    unfold stepAt; dsimp only
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    rw [scrAt_step m c t h0]
    unfold stepAt; dsimp only
    by_cases h1 : t.val % 8 = 7
    · rw [show (dats m 0 c).leavesExact 6 t = owns (c : Thread nD τ) (ms0_6 t) fullShare ((dats m 0 c).after 6 t) from by
        unfold Dat.leavesExact; rw [liveAt0_6 t ((hcond0_1 t).mpr h1)], after0_6]
      unfold outAt
      rw [scrAt_step m c t h0]
      unfold stepAt; dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats m 0 c) 6 t (idleAt0_6 t (fun h => h1 ((hcond0_1 t).mp h))) (noFlush0_6 t (fun h => h1 ((hcond0_1 t).mp h)))]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the columns' named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

end Cert.Kernel.Hand

end
-- ==== Proof.K.Launch1.lean ====
/-
  The launch, first part. Two of the seven windows read one array (the embeddings rounded for the matrix unit, once
  in row blocks and once whole), so the pipeline holds that array's buffer in two halves, one per window; the other
  five arrays are held whole. Here: how @main reaches the region from the host operations before it, and how the
  six distinct buffers behind the windows' arrays, each whole at entry, become the seven windows' arrays.
-/
import proofs.«151407_j52183852646786_2_alg».proof.Proof.K.Body
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the eight host operations, the region, the four host operations: it reduces to the region continued by
    the later four, at the contents after the earlier eight. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The six distinct buffers behind the seven windows' arrays. -/
theorem arrBufs0_eq (c : Dev nD) (V : (b : Ref sig .tc) → Buf (Elt F) ((c.tc : Thread nD τ).loc b)) :
    (Pipeline.arrBufs spec0 c V : sProp 𝕄)
      = iprop((((c.tc : Thread nD τ).loc main_v0) ↦{fullShare} V main_v0) ∗ (((c.tc : Thread nD τ).loc main_v3) ↦{fullShare} V main_v3) ∗ (((c.tc : Thread nD τ).loc main_v4) ↦{fullShare} V main_v4) ∗ (((c.tc : Thread nD τ).loc main_v5) ↦{fullShare} V main_v5) ∗ (((c.tc : Thread nD τ).loc main_v6) ↦{fullShare} V main_v6) ∗ (((c.tc : Thread nD τ).loc main_v7) ↦{fullShare} V main_v7)) := by
  unfold Pipeline.arrBufs
  exact bigSep_eq_bigSepL_of_eq [main_v0, main_v3, main_v4, main_v5, main_v6, main_v7] (by decide) (by decide) _

/-- A window's array, a whole buffer, is held through its buffer. -/
theorem arr_pt (c : Dev nD) (w : Fin 7) (q : PosShare TreeShare) (X : Buf (Elt F) ((cfg0.win w).arr.view.loc (c.tc : Thread nD τ))) :
    ((cfg0.win w).arr.view.loc (c.tc : Thread nD τ) ↦[(cfg0.win w).arr.view.set]{q} X : sProp 𝕄)
      = (((c.tc : Thread nD τ).loc (Pipeline.arrRef spec0 w)) ↦{q} X : sProp 𝕄) := by
  rw [(arr_whole0 w).set_eq_univ]

/-- The windows' arrays, whole buffers, are held through their buffers, each at its share. -/
theorem arrays_eq' (c : Dev nD) (X : (w : Fin cfg0.W) → Buf (Elt F) ((cfg0.win w).arr.view.loc (c.tc : Thread nD τ))) :
    (dats m 0 c).arrays X = bigSep Finset.univ fun w => (((c.tc : Thread nD τ).loc (Pipeline.arrRef spec0 w)) ↦{(dats m 0 c).share w} X w : sProp 𝕄) := by
  unfold Dat.arrays
  exact bigSep_congr fun w _ => by rw [(arr_whole0 w).set_eq_univ]

set_option maxHeartbeats 1000000 in
/-- The buffers behind the arrays, each whole at the entry contents, are the windows' arrays at entry: the buffer
    of the embeddings is split in two halves, one for each of the two windows on it. -/
theorem hsplit (c : Dev nD) : (Pipeline.arrBufs spec0 c (V m c) : sProp 𝕄) ⊢ (dats m 0 c).arrays ((dats m 0 c).arrAt · 0) := by
  rw [arrBufs0_eq, arrays_eq', bigSep_W0]
  refine Entails.trans (Q := iprop((((c.tc : Thread nD τ).loc main_v0) ↦{fullShare.left} V m c main_v0) ∗ (((c.tc : Thread nD τ).loc main_v0) ↦{fullShare.right} V m c main_v0) ∗ (((c.tc : Thread nD τ).loc main_v3) ↦{fullShare} V m c main_v3) ∗ (((c.tc : Thread nD τ).loc main_v4) ↦{fullShare} V m c main_v4) ∗ (((c.tc : Thread nD τ).loc main_v5) ↦{fullShare} V m c main_v5) ∗ (((c.tc : Thread nD τ).loc main_v6) ↦{fullShare} V m c main_v6) ∗ (((c.tc : Thread nD τ).loc main_v7) ↦{fullShare} V m c main_v7))) ?_ (Entails.of_eq rfl)
  iintro ⟨H0, H3, H4, H5, H6, H7⟩
  ihave HA := (pointsTo_share (PosShare.mem_left_op_right fullShare)).1 $$ H0
  icases HA with ⟨H0l, H0r⟩
  isplitl [H0l]; · iexact H0l
  isplitl [H0r]; · iexact H0r
  isplitl [H3]; · iexact H3
  isplitl [H4]; · iexact H4
  isplitl [H5]; · iexact H5
  isplitl [H6]; · iexact H6
  iexact H7

end Cert.Kernel.Hand

end
-- ==== Proof.K.Launch2.lean ====
/-
  The launch, second part. After the region four host operations turn the output column into its mean. They touch
  the output array's buffer, which they only read, and buffers that bypass the region; so they run holding exactly
  that buffer and the nine bypassing ones, and the windows' arrays come back as the region left them. The run of
  @main then ends with the result buffer at the mean of the output array after the last write-back, and with the
  two argument arrays as launched.
-/
import proofs.«151407_j52183852646786_2_alg».proof.Proof.K.Launch1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Pipeline (unscopedRestP unscopedRest restRefsP restRefs Prefetch)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The mean of a column of 8192 entries, as the four host operations after the region compute it. -/
def tailVal (o : FVec F S8192x1 .f32) : FVec F S_ .f32 :=
  Host.divf (Host.reduceAdd o (constant S_ .f32 0x00000000#32) reducesTo_S8192x1_S_d0_1 h_S_) (constant S_ .f32 0x46000000#32)

/-- Core c's buffers when the region is left: the output array at what the write-backs left, every other buffer
    as the region found it; -/
def Wout (c : Dev nD) : Valuation τ sig (Elt F) :=
  Function.update (V0 m c) (Proc.devRef .tc main_v7) ((dats m 0 c).arrAt 6 cfg0.N)
/-- and after the four host operations that follow. -/
def Wfin (c : Dev nD) : Valuation τ sig (Elt F) := StableHlo.after hostOps1 (Wout m c)

theorem Wout_v7 (c : Dev nD) : Wout m c (Proc.devRef .tc main_v7) = (dats m 0 c).arrAt 6 cfg0.N := Function.update_self _ _ _
theorem Wout_of_ne (c : Dev nD) (b : Ref sig .tc) (h : b ≠ main_v7) : Wout m c (Proc.devRef .tc b) = V m c b :=
  Function.update_of_ne (StableHlo.devRef_ne_of_ne h) _ _

/-- The ten buffers the later host operations run within. -/
abbrev tailList : List (Ref sig .tc) := [main_v7, main_arg0, main_arg1, main_v1, main_cst, main_v2, main_cst_0, main_v8, main_cst_1, main_v9]
def tailSet : Finset (DevRef τ sig) := tailList.toFinset.map ⟨Proc.devRef (sig := sig) (.tc : Proc τ), Proc.devRef_injective _⟩

theorem held_tail (c : Dev nD) (W : Valuation τ sig (Elt F)) :
    (StableHlo.held (c.tc : Thread nD τ) tailSet W : sProp 𝕄)
      = iprop((((c.tc : Thread nD τ).loc main_v7) ↦{fullShare} W (Proc.devRef .tc main_v7)) ∗ (((c.tc : Thread nD τ).loc main_arg0) ↦{fullShare} W (Proc.devRef .tc main_arg0)) ∗ (((c.tc : Thread nD τ).loc main_arg1) ↦{fullShare} W (Proc.devRef .tc main_arg1)) ∗ (((c.tc : Thread nD τ).loc main_v1) ↦{fullShare} W (Proc.devRef .tc main_v1)) ∗ (((c.tc : Thread nD τ).loc main_cst) ↦{fullShare} W (Proc.devRef .tc main_cst)) ∗ (((c.tc : Thread nD τ).loc main_v2) ↦{fullShare} W (Proc.devRef .tc main_v2)) ∗ (((c.tc : Thread nD τ).loc main_cst_0) ↦{fullShare} W (Proc.devRef .tc main_cst_0)) ∗ (((c.tc : Thread nD τ).loc main_v8) ↦{fullShare} W (Proc.devRef .tc main_v8)) ∗ (((c.tc : Thread nD τ).loc main_cst_1) ↦{fullShare} W (Proc.devRef .tc main_cst_1)) ∗ (((c.tc : Thread nD τ).loc main_v9) ↦{fullShare} W (Proc.devRef .tc main_v9))) := by
  unfold StableHlo.held tailSet
  rw [bigSep_map]
  exact bigSep_eq_bigSepL_of_eq tailList rfl (by decide) _

theorem restP_eq (c : Dev nD) (W : (b : Ref sig .tc) → Buf (Elt F) ((c.tc : Thread nD τ).loc b)) :
    (unscopedRestP (Ix := Unit) (Name := ℕ) (U := UR sig nD τ) (Lvl := ℕ) Prefetch.none spec0 c W : sProp 𝕄)
      = iprop((((c.tc : Thread nD τ).loc main_arg0) ↦{fullShare} W main_arg0) ∗ (((c.tc : Thread nD τ).loc main_arg1) ↦{fullShare} W main_arg1) ∗ (((c.tc : Thread nD τ).loc main_v1) ↦{fullShare} W main_v1) ∗ (((c.tc : Thread nD τ).loc main_cst) ↦{fullShare} W main_cst) ∗ (((c.tc : Thread nD τ).loc main_v2) ↦{fullShare} W main_v2) ∗ (((c.tc : Thread nD τ).loc main_cst_0) ↦{fullShare} W main_cst_0) ∗ (((c.tc : Thread nD τ).loc main_v8) ↦{fullShare} W main_v8) ∗ (((c.tc : Thread nD τ).loc main_cst_1) ↦{fullShare} W main_cst_1) ∗ (((c.tc : Thread nD τ).loc main_v9) ↦{fullShare} W main_v9)) := by
  rw [Pipeline.unscopedRestP_none, unscopedRest0_eq]

theorem tail_sub : ∀ op ∈ (hostOps1 : List (HloOp τ sig (Elt F))), op.bufs ⊆ tailSet := by
  intro op hop
  simp only [hostOps1, List.mem_cons, List.mem_nil_iff, _root_.or_false] at hop
  rcases hop with rfl | rfl | rfl | rfl
  all_goals
    simp only [StableHlo.nullary_bufs, StableHlo.binary_bufs, Finset.insert_subset_iff, Finset.singleton_subset_iff]
    repeat' apply And.intro
    all_goals exact Finset.mem_map_of_mem _ (by decide)

theorem tail_keeps (b : Ref sig .tc) (h0 : b ≠ main_cst_0) (h1 : b ≠ main_v8) (h2 : b ≠ main_cst_1) (h3 : b ≠ main_v9) :
    ∀ op ∈ (hostOps1 : List (HloOp τ sig (Elt F))), Proc.devRef (τ := τ) .tc b ∉ op.writes := by
  intro op hop
  simp only [hostOps1, List.mem_cons, List.mem_nil_iff, _root_.or_false] at hop
  rcases hop with rfl | rfl | rfl | rfl
  all_goals simp only [StableHlo.nullary_writes, StableHlo.binary_writes, Finset.mem_singleton]
  · exact StableHlo.devRef_ne_of_ne h0
  · exact StableHlo.devRef_ne_of_ne h1
  · exact StableHlo.devRef_ne_of_ne h2
  · exact StableHlo.devRef_ne_of_ne h3

theorem Wfin_keep (c : Dev nD) (b : Ref sig .tc) (h0 : b ≠ main_cst_0) (h1 : b ≠ main_v8) (h2 : b ≠ main_cst_1) (h3 : b ≠ main_v9) :
    Wfin m c (Proc.devRef .tc b) = Wout m c (Proc.devRef .tc b) :=
  StableHlo.after_of_forall_not_mem _ _ (tail_keeps b h0 h1 h2 h3)

/-- The output array is not written by the later host operations. -/
theorem Wfin_v7 (c : Dev nD) : Wfin m c (Proc.devRef .tc main_v7) = (dats m 0 c).arrAt 6 cfg0.N :=
  (Wfin_keep m c main_v7 (by decide) (by decide) (by decide) (by decide)).trans (Wout_v7 m c)

set_option backward.isDefEq.respectTransparency.types false in
set_option maxHeartbeats 2000000 in
/-- The four host operations after the region, from the region's exit. -/
theorem htail (𝒱₀ : Variants) (c : Dev nD) (Q' : PUnit → sProp 𝕄) :
    iprop((iprop((dats m 0 c).arrays ((dats m 0 c).arrAt · cfg0.N) ∗ unscopedRestP Prefetch.none spec0 c (fun b => Wfin m c (Proc.devRef .tc b))) -∗ Q' ⟨⟩)
        ∗ boundary (c.tc : Thread nD τ) ∗ (dats m 0 c).arrays ((dats m 0 c).arrAt · cfg0.N) ∗ unscopedRestP Prefetch.none spec0 c (V m c))
      ⊢ wp frame (wpE (defs (F := F)) (Variants.lift 𝒱₀) (c.tc : Thread nD τ) none) Set.univ (Pipeline.chain [StableHlo.seq hostOps1]) Q' := by
  rw [arrays_eq', bigSep_W0, restP_eq, restP_eq, Pipeline.chain_cons]
  iintro ⟨Hk, Hb, ⟨A0, A1, A2, A3, A4, A5, A6⟩, ⟨B0, B1, B2, B3, B4, B5, B6, B7, B8⟩⟩
  iapply (StableHlo.wp_seq (Variants.lift 𝒱₀) none Set.univ c (tailSet) _ hostOps1 tail_sub (List.forall_iff_forall_mem.mp hostOps1_fresh) (Wout m c)) $$ [Hb A6 B0 B1 B2 B3 B4 B5 B6 B7 B8]
  · rw [held_tail, Wout_v7, Wout_of_ne m c main_arg0 (by decide), Wout_of_ne m c main_arg1 (by decide), Wout_of_ne m c main_v1 (by decide), Wout_of_ne m c main_cst (by decide), Wout_of_ne m c main_v2 (by decide), Wout_of_ne m c main_cst_0 (by decide), Wout_of_ne m c main_v8 (by decide), Wout_of_ne m c main_cst_1 (by decide), Wout_of_ne m c main_v9 (by decide)]
    isplitl [Hb]; · iexact Hb
    isplitl [A6]; · iexact A6
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iintro ⟨Hb, HT⟩
  rw [Pipeline.chain_nil, wp_pure]
  imodintro
  ihave HT' := (Entails.of_eq (held_tail c (StableHlo.after hostOps1 (Wout m c)))) $$ HT
  icases HT' with ⟨T7, B0, B1, B2, B3, B4, B5, B6, B7, B8⟩
  ihave T7' := (Entails.of_eq (congrArg (fun X => (((c.tc : Thread nD τ).loc main_v7) ↦{fullShare} X : sProp 𝕄)) (show StableHlo.after hostOps1 (Wout m c) (Proc.devRef .tc main_v7) = (dats m 0 c).arrAt 6 cfg0.N from Wfin_v7 m c))) $$ T7
  iapply Hk
  isplitl [A0 A1 A2 A3 A4 A5 T7']
  · isplitl [A0]; · iexact A0
    isplitl [A1]; · iexact A1
    isplitl [A2]; · iexact A2
    isplitl [A3]; · iexact A3
    isplitl [A4]; · iexact A4
    isplitl [A5]; · iexact A5
    iexact T7'
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8

/-- A buffer none of the eight host operations before the region writes is, at the region's entry, as launched. -/
theorem V_keep (c : Dev nD) (b : Ref sig .tc)
    (h : ∀ r ∈ ([main_v0, main_v1, main_cst, main_v2, main_v3, main_v4, main_v5, main_v6] : List (Ref sig .tc)), b ≠ r) :
    V m c b = m ((c.tc : Thread nD τ).loc b) := by
  refine (StableHlo.after_of_forall_not_mem _ _ (fun op hop => ?_)).trans rfl
  simp only [List.flatten_cons, List.flatten_nil, List.append_nil, hostOps0, List.mem_cons, List.mem_nil_iff, _root_.or_false] at hop
  rcases hop with rfl | rfl | rfl | rfl | rfl | rfl | rfl | rfl
  all_goals simp only [StableHlo.nullary_writes, StableHlo.unary_writes, StableHlo.binary_writes, StableHlo.reshape_writes, Finset.mem_singleton]
  · exact StableHlo.devRef_ne_of_ne (h main_v0 (by simp))
  · exact StableHlo.devRef_ne_of_ne (h main_v1 (by simp))
  · exact StableHlo.devRef_ne_of_ne (h main_cst (by simp))
  · exact StableHlo.devRef_ne_of_ne (h main_v2 (by simp))
  · exact StableHlo.devRef_ne_of_ne (h main_v3 (by simp))
  · exact StableHlo.devRef_ne_of_ne (h main_v4 (by simp))
  · exact StableHlo.devRef_ne_of_ne (h main_v5 (by simp))
  · exact StableHlo.devRef_ne_of_ne (h main_v6 (by simp))

/-- The result buffer after the four later host operations: the mean of the output array. -/
theorem Wfin_v9 (c : Dev nD) : Wfin m c (Proc.devRef .tc main_v9) = tailVal ((dats m 0 c).arrAt 6 cfg0.N) := by
  unfold Wfin tailVal
  after_results
  rw [Wout_v7]

set_option backward.isDefEq.respectTransparency.types false in
set_option maxHeartbeats 4000000 in
/-- At the compiled mesh, from any memory with zero counters: every weakly fair execution of @main terminates, with
    the result buffer at the mean of the output array as the last write-back left it, and the two argument arrays
    as launched. -/
theorem run_main : θ_run (defs (F := F)) (onTc (τ := τ) (main (F := F))) ⟨m, fun _ => 0, ρ⟩ (fun r => ∀ c : Dev nD,
      r.2.mem ((c.tc : Thread nD τ).loc main_v9) = tailVal ((dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  have hcell : Function.Injective (Pipeline.cellOf (nD := nD) (τ := τ) (Pipeline.pin (pcfgs (F := F)) fun q => (cfgs q).toPCfg_adm)) := cellOf_inj
  exact Pipeline.θ_run_region_pf_tail (pcfgs (F := F)) (fun q => (cfgs q).toPCfg_adm) (dats m) () hcell 0 winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells (Pipeline.pin (pcfgs (F := F)) fun q => (cfgs q).toPCfg_adm) hcell) (Pipeline.launchToks (Pipeline.pin (pcfgs (F := F)) fun q => (cfgs q).toPCfg_adm) hcell))
    (hu₀ := by
      iintro Hu; imodintro
      isplitl [Hu]; · iapply (show (ownU _ : sProp 𝕄) ⊢ BI.own (emb₁ (initOf (Pipeline.cells (Pipeline.pin (pcfgs (F := F)) fun q => (cfgs q).toPCfg_adm) hcell) (Pipeline.launchToks (Pipeline.pin (pcfgs (F := F)) fun q => (cfgs q).toPCfg_adm) hcell))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (fun b => Wfin m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m Variants.none c Q')
    (QY := fun c s => ∀ b ∈ restRefsP sig Prefetch.none spec0, s.mem ((c.tc : Thread nD τ).loc b) = Wfin m c (Proc.devRef .tc b))
    (hY := fun c s' => by
      iintro ⟨-, HU, HSI⟩
      unfold unscopedRestP
      imodintro
      iapply (pointsTo_read_all (restRefsP sig Prefetch.none spec0) (fun b => (c.tc : Thread nD τ).loc b) (fun b => Wfin m c (Proc.devRef .tc b)) s')
      isplitl [HU] <;> iassumption)
    (hQ := fun s h c => ⟨((h c).2.2 main_v9 (by decide)).trans (Wfin_v9 m c),
      ((h c).2.2 main_arg0 (by decide)).trans ((Wfin_keep m c main_arg0 (by decide) (by decide) (by decide) (by decide)).trans ((Wout_of_ne m c main_arg0 (by decide)).trans (V_keep m c main_arg0 (by decide)))),
      ((h c).2.2 main_arg1 (by decide)).trans ((Wfin_keep m c main_arg1 (by decide) (by decide) (by decide) (by decide)).trans ((Wout_of_ne m c main_arg1 (by decide)).trans (V_keep m c main_arg1 (by decide))))⟩)

/-- info: 'Cert.Kernel.Hand.run_main' depends on axioms: [propext, Classical.choice, Quot.sound] -/
#guard_msgs in #print axioms run_main

end Cert.Kernel.Hand

end
-- ==== Proof.KI.Base.lean ====
/-
  What the three runs of the kernel body share. The grid is 16 row blocks by 8 column blocks, the column index
  moving fastest: point t is row block t / 8 and column block t % 8. The body resets its two running columns
  (the largest same-label distance and the smallest other-label distance seen so far, per row) at column block 0,
  updates them at every column block, and stores the hinge into the output block at column block 7 only.
  Here: the two branch conditions decided over the grid, where the output window is idle, and names for the
  staging memrefs and the two scratch columns.
-/
import proofs.«151407_j52183852646786_2_alg».proof.Proof.Gen.KernelIdeal.Launch
import proofs.«151407_j52183852646786_2_alg».proof.Proof.Gen.KernelIdeal.Skeleton
import proofs.«151407_j52183852646786_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reset branch is taken: the column block is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The hinge branch is taken: the column block is 7, the last. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The six input windows are never idle; the output window is idle exactly off the last column block, and is
    written back exactly there. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-- Each window's current staging memref at point t, as the pipeline passes it to the body, and its wholeness. -/
abbrev ms0_0 (t : Fin cfg0.N) : Memref sig .tc .vmem S512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8192 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- The two scratch columns: the running largest same-label distance, the running smallest other-label distance. -/
abbrev scM0_0 : Memref sig .tc .vmem S512x1 .f32 := Memref.whole cc0_scratch0
abbrev scM0_1 : Memref sig .tc .vmem S512x1 .f32 := Memref.whole cc0_scratch1

/-- What the launch hands the region besides the windows: the two scratch columns at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KI.Step.lean ====
/-
  One grid point's arithmetic as pure functions of what the body loads. At a point with row block i 0 and column
  block i 1 the body reads its 512 rows of embeddings, squared norms and labels whole, and of the three resident
  operands (all 8192 embeddings, squared norms, labels) the 1024 columns starting at 1024 * (i 1). From them it
  forms the 512 x 1024 tile of distances and the tile of label agreements, and folds each row of the tile into the
  two running columns: the largest distance to a different row of the same label, the smallest distance to a row
  of another label. At the last column block the hinge of the two columns is the output block.
-/
import proofs.«151407_j52183852646786_2_alg».proof.Proof.Gen.KernelIdeal.Skeleton
import Idealize.ShloMosaic.Lib.Pipeline.FrameBody

noncomputable section

namespace Cert.KernelIdeal.Hand

open Idealize.ShloMosaic Idealize.SL.Sem Cert.KernelIdeal Cert.KernelIdeal.Gen

variable {F : FTy → Type} [FloatOps F]

/-- The point's 1024 columns of the resident embeddings. -/
def colE (i : grid0.Coords) (x3 : Vec F S8192x128 .bf16) : Vec F S1024x128 .bf16 :=
  View.ld (Val := Elt F) x3 (Rect.unit (s := S8192x128) (k0_off1 i) S1024x128.size (k0_off1_inb i))
/-- The point's 1024 entries of the resident squared norms. -/
def colSq (i : grid0.Coords) (x5 : Vec F S1x8192 .f32) : Vec F S1x1024 .f32 :=
  View.ld (Val := Elt F) x5 (Rect.unit (s := S1x8192) (k0_off2 i) S1x1024.size (k0_off2_inb i))
/-- The point's 1024 entries of the resident labels. -/
def colL (i : grid0.Coords) (x7 : Vec F S1x8192 .i32) : Vec F S1x1024 .i32 :=
  View.ld (Val := Elt F) x7 (Rect.unit (s := S1x8192) (k0_off2 i) S1x1024.size (k0_off2_inb i))

/-- The tile of distances between the point's rows and columns. -/
def tile (i : grid0.Coords) (x2 : Vec F S512x128 .bf16) (x3 : Vec F S8192x128 .bf16) (x4 : Vec F S512x1 .f32) (x5 : Vec F S1x8192 .f32) :
    FVec F S512x1024 .f32 := k0_pay6 x2 (colE i x3) x4 (colSq i x5)
/-- The tile of label agreements. -/
def same (i : grid0.Coords) (x6 : Vec F S512x1 .i32) (x7 : Vec F S1x8192 .i32) : IVec S512x1024 1 := k0_pay7 x6 (colL i x7)

/-- The running largest same-label distance after the point, from the column before it. -/
def stepPos (i : grid0.Coords) (x2 : Vec F S512x128 .bf16) (x3 : Vec F S8192x128 .bf16) (x4 : Vec F S512x1 .f32) (x5 : Vec F S1x8192 .f32)
    (x6 : Vec F S512x1 .i32) (x7 : Vec F S1x8192 .i32) (prev : Vec F S512x1 .f32) : Vec F S512x1 .f32 :=
  k0_pay1 (k0_mult1 i) (tile i x2 x3 x4 x5) (same i x6 x7) (k0_pay8 i) (iota .tc S1x1024 32 [1] iota_S1x1024_d1_w32) prev
/-- The running smallest other-label distance after the point, from the column before it. -/
def stepNeg (i : grid0.Coords) (x2 : Vec F S512x128 .bf16) (x3 : Vec F S8192x128 .bf16) (x4 : Vec F S512x1 .f32) (x5 : Vec F S1x8192 .f32)
    (x6 : Vec F S512x1 .i32) (x7 : Vec F S1x8192 .i32) (prev : Vec F S512x1 .f32) : Vec F S512x1 .f32 :=
  k0_pay2 (tile i x2 x3 x4 x5) (same i x6 x7) prev

/-- The zero offsets, however spelt. -/
theorem hz2 : (![0, 0] : Fin 2 → Nat) = fun _ => 0 := by funext a; fin_cases a <;> rfl

end Cert.KernelIdeal.Hand

end
-- ==== Proof.KI.Data.lean ====
/-
  The proof data of the one pipeline. Point t (row block t / 8, column block t % 8) finds every input window's
  staging buffer at the window's block of its array, as the region finds the arrays. The two running columns after
  point t are defined by recursion on t: at a first column block they are the step of the reset values, elsewhere
  the step of what point t - 1 left. The output block after point t is the hinge of the two columns after t; it is
  written back at the last column blocks only, and the window is idle elsewhere. The region's invariant names the
  two columns from the second point on.
-/
import proofs.«151407_j52183852646786_2_alg».proof.Proof.KI.Base
import proofs.«151407_j52183852646786_2_alg».proof.Proof.KI.Step

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffer contents when the region is entered: after the eight host operations before it. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One point's step of the pair of running columns. -/
def stepAt (c : Dev nD) (t : Fin cfg0.N) (prev : Vec F S512x1 .f32 × Vec F S512x1 .f32) : Vec F S512x1 .f32 × Vec F S512x1 .f32 :=
  (stepPos (grid0.coords t) (iblk m c 0 t) (iblk m c 1 t) (iblk m c 2 t) (iblk m c 3 t) (iblk m c 4 t) (iblk m c 5 t) prev.1,
   stepNeg (grid0.coords t) (iblk m c 0 t) (iblk m c 1 t) (iblk m c 2 t) (iblk m c 3 t) (iblk m c 4 t) (iblk m c 5 t) prev.2)

/-- The pair of running columns after point n. -/
def scrAt (c : Dev nD) : (n : ℕ) → n < cfg0.N → Vec F S512x1 .f32 × Vec F S512x1 .f32
  | 0, hn => stepAt m c ⟨0, hn⟩ (k0_pay4, k0_pay5)
  | n + 1, hn => stepAt m c ⟨n + 1, hn⟩ (if (n + 1) % 8 = 0 then (k0_pay4, k0_pay5) else scrAt c n (Nat.lt_of_succ_lt hn))

theorem scrAt_reset (c : Dev nD) (t : Fin cfg0.N) (h : t.val % 8 = 0) :
    scrAt m c t.val t.isLt = stepAt m c t (k0_pay4, k0_pay5) := by
  obtain ⟨n, hn⟩ := t
  cases n with
  | zero => rfl
  | succ n => show stepAt m c _ (if (n + 1) % 8 = 0 then _ else _) = _; rw [if_pos h]

theorem scrAt_step (c : Dev nD) (t : Fin cfg0.N) (h : ¬t.val % 8 = 0) :
    scrAt m c t.val t.isLt = stepAt m c t (scrAt m c (t.val - 1) (Nat.lt_of_le_of_lt (Nat.sub_le _ _) t.isLt)) := by
  obtain ⟨n, hn⟩ := t
  cases n with
  | zero => exact absurd (Nat.zero_mod _) h
  | succ n => show stepAt m c _ (if (n + 1) % 8 = 0 then _ else _) = _; rw [if_neg h]; rfl

/-- The global row of local row p of the row block of point t. -/
def rowOf (t : Fin cfg0.N) (p : Fin 512) : Fin 8192 :=
  ⟨512 * (t.val / 8) + p.val, by have h := t.isLt; have hN : cfg0.N = 128 := N_0; have := p.isLt; omega⟩

/-- The output block after point t: the hinge of the two columns after t. -/
def outAt (c : Dev nD) (t : Fin cfg0.N) : Vec F S512x1 .f32 :=
  k0_pay3 (scrAt m c t.val t.isLt).1 (scrAt m c t.val t.isLt).2

/-- The region's invariant before position n: before the first point the two scratch columns at anything;
    afterwards at what the point before left. The generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((scrAt m c n hn).1) ∗ owns (c : Thread nD τ) scM0_1 fullShare ((scrAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scrAt m c n hn).1) ∗ owns (c : Thread nD τ) scM0_1 fullShare ((scrAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scrAt m c (n - 1) (by omega)).1) ∗ owns (c : Thread nD τ) scM0_1 fullShare ((scrAt m c (n - 1) (by omega)).2)) ∗ (∃ r, prngReg c r)) := by
  cases n with
  | zero => exact absurd rfl hz
  | succ n => rfl

/-- The proof data: the arrays as the region finds them; after the body each input's buffer at its block, the
    output's at the hinge of the columns; the two windows on the one array of embeddings each hold half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

end Cert.KernelIdeal.Hand

end
-- ==== Proof.KI.RunA.lean ====
/-
  The body at a point of the first column block: the reset branch is taken and the hinge branch is not. The two running columns, whatever they held, are reset (to 0 and to +inf) and then stepped; the output buffer is not touched.
-/
import proofs.«151407_j52183852646786_2_alg».proof.Proof.KI.Base
import proofs.«151407_j52183852646786_2_alg».proof.Proof.KI.Step
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_A (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x8192 .f32) (harg5 : arg5.IsWhole) (arg6 : Memref sig .tc .vmem S512x1 .i32) (harg6 : arg6.IsWhole) (arg7 : Memref sig .tc .vmem S1x8192 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x2 : Vec F S512x128 .bf16) (x3 : Vec F S8192x128 .bf16) (x4 : Vec F S512x1 .f32) (x5 : Vec F S1x8192 .f32) (x6 : Vec F S512x1 .i32) (x7 : Vec F S1x8192 .i32) (xi8 : Vec F S512x1 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare xi8 ∗ (∃ d, owns (c : Thread nD τ) arg9 fullShare d) ∗ (∃ d, owns (c : Thread nD τ) arg10 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare xi8 ∗ owns (c : Thread nD τ) arg9 fullShare (stepPos i x2 x3 x4 x5 x6 x7 k0_pay4) ∗ owns (c : Thread nD τ) arg10 fullShare (stepNeg i x2 x3 x4 x5 x6 x7 k0_pay5)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10) K := by
  simp only [cc0__triplet_kernel_eq_skeleton]; unfold cc0__triplet_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7
  obtain rfl := harg8.eq_unread hf8
  sl_exec (disch := first | exact hc0 | exact hc1)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    swap; · iexact H9
    ipureintro
    sl_unfold_run_names
    rw [View.read_writes_eq_canon _ _ _ (fun y => ⟨_, List.mem_cons_self, View.mem_set_unit_zero hz2 inb_S512x1_S512x1_0_0 y⟩), View.canon_cons_unit_zero hz2]
    simp only [View.readAt_eq_ld, harg2.read_unread, harg3.read_unread, harg4.read_unread, harg5.read_unread, harg6.read_unread, harg7.read_unread, harg8.read_unread, harg9.read_unread, harg10.read_unread, View.ld_unit_zero (S := S512x128) hz2 inb_S512x128_S512x128_0_0, View.ld_unit_zero (S := S512x1) hz2 inb_S512x1_S512x1_0_0, View.readCov_unit_zero (S := S512x1) _ hz2 inb_S512x1_S512x1_0_0]
    rfl
  · iexists _; isplitr
    swap; · iexact H10
    ipureintro
    sl_unfold_run_names
    rw [View.read_writes_eq_canon _ _ _ (fun y => ⟨_, List.mem_cons_self, View.mem_set_unit_zero hz2 inb_S512x1_S512x1_0_0 y⟩), View.canon_cons_unit_zero hz2]
    simp only [View.readAt_eq_ld, harg2.read_unread, harg3.read_unread, harg4.read_unread, harg5.read_unread, harg6.read_unread, harg7.read_unread, harg8.read_unread, harg9.read_unread, harg10.read_unread, View.ld_unit_zero (S := S512x128) hz2 inb_S512x128_S512x128_0_0, View.ld_unit_zero (S := S512x1) hz2 inb_S512x1_S512x1_0_0, View.readCov_unit_zero (S := S512x1) _ hz2 inb_S512x1_S512x1_0_0]
    rfl

end Cert.KernelIdeal.Hand

end
-- ==== Proof.KI.RunB.lean ====
/-
  The body at a point whose column block is neither the first nor the last: neither branch is taken. The six input buffers are read and left as found, the output buffer is not touched, and each running column is replaced by its step from what the point before left.
-/
import proofs.«151407_j52183852646786_2_alg».proof.Proof.KI.Base
import proofs.«151407_j52183852646786_2_alg».proof.Proof.KI.Step
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_B (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x8192 .f32) (harg5 : arg5.IsWhole) (arg6 : Memref sig .tc .vmem S512x1 .i32) (harg6 : arg6.IsWhole) (arg7 : Memref sig .tc .vmem S1x8192 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x2 : Vec F S512x128 .bf16) (x3 : Vec F S8192x128 .bf16) (x4 : Vec F S512x1 .f32) (x5 : Vec F S1x8192 .f32) (x6 : Vec F S512x1 .i32) (x7 : Vec F S1x8192 .i32) (xi8 xs0 xs1 : Vec F S512x1 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare xi8 ∗ owns (c : Thread nD τ) arg9 fullShare xs0 ∗ owns (c : Thread nD τ) arg10 fullShare xs1
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare xi8 ∗ owns (c : Thread nD τ) arg9 fullShare (stepPos i x2 x3 x4 x5 x6 x7 xs0) ∗ owns (c : Thread nD τ) arg10 fullShare (stepNeg i x2 x3 x4 x5 x6 x7 xs1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10) K := by
  simp only [cc0__triplet_kernel_eq_skeleton]; unfold cc0__triplet_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    swap; · iexact H9
    ipureintro
    sl_unfold_run_names
    rw [View.read_writes_eq_canon _ _ _ (fun y => ⟨_, List.mem_cons_self, View.mem_set_unit_zero hz2 inb_S512x1_S512x1_0_0 y⟩), View.canon_cons_unit_zero hz2]
    simp only [View.readAt_eq_ld, harg2.read_unread, harg3.read_unread, harg4.read_unread, harg5.read_unread, harg6.read_unread, harg7.read_unread, harg8.read_unread, harg9.read_unread, harg10.read_unread, View.ld_unit_zero (S := S512x128) hz2 inb_S512x128_S512x128_0_0, View.ld_unit_zero (S := S512x1) hz2 inb_S512x1_S512x1_0_0, View.readCov_unit_zero (S := S512x1) _ hz2 inb_S512x1_S512x1_0_0]
    rfl
  · iexists _; isplitr
    swap; · iexact H10
    ipureintro
    sl_unfold_run_names
    rw [View.read_writes_eq_canon _ _ _ (fun y => ⟨_, List.mem_cons_self, View.mem_set_unit_zero hz2 inb_S512x1_S512x1_0_0 y⟩), View.canon_cons_unit_zero hz2]
    simp only [View.readAt_eq_ld, harg2.read_unread, harg3.read_unread, harg4.read_unread, harg5.read_unread, harg6.read_unread, harg7.read_unread, harg8.read_unread, harg9.read_unread, harg10.read_unread, View.ld_unit_zero (S := S512x128) hz2 inb_S512x128_S512x128_0_0, View.ld_unit_zero (S := S512x1) hz2 inb_S512x1_S512x1_0_0, View.readCov_unit_zero (S := S512x1) _ hz2 inb_S512x1_S512x1_0_0]
    rfl

end Cert.KernelIdeal.Hand

end
-- ==== Proof.KI.RunC.lean ====
/-
  The body at a point of the last column block: the reset branch is not taken and the hinge branch is. Each running column is stepped from what the point before left, and the output buffer, whatever it held, receives the hinge of the two stepped columns.
-/
import proofs.«151407_j52183852646786_2_alg».proof.Proof.KI.Base
import proofs.«151407_j52183852646786_2_alg».proof.Proof.KI.Step
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_C (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x8192 .f32) (harg5 : arg5.IsWhole) (arg6 : Memref sig .tc .vmem S512x1 .i32) (harg6 : arg6.IsWhole) (arg7 : Memref sig .tc .vmem S1x8192 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x2 : Vec F S512x128 .bf16) (x3 : Vec F S8192x128 .bf16) (x4 : Vec F S512x1 .f32) (x5 : Vec F S1x8192 .f32) (x6 : Vec F S512x1 .i32) (x7 : Vec F S1x8192 .i32) (xs0 xs1 : Vec F S512x1 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ owns (c : Thread nD τ) arg9 fullShare xs0 ∗ owns (c : Thread nD τ) arg10 fullShare xs1
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (k0_pay3 (stepPos i x2 x3 x4 x5 x6 x7 xs0) (stepNeg i x2 x3 x4 x5 x6 x7 xs1)) ∗ owns (c : Thread nD τ) arg9 fullShare (stepPos i x2 x3 x4 x5 x6 x7 xs0) ∗ owns (c : Thread nD τ) arg10 fullShare (stepNeg i x2 x3 x4 x5 x6 x7 xs1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10) K := by
  simp only [cc0__triplet_kernel_eq_skeleton]; unfold cc0__triplet_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7
  obtain rfl := harg9.eq_unread hf9; obtain rfl := harg10.eq_unread hf10
  sl_exec (disch := first | exact hc0 | exact hc1)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    swap; · iexact H8
    ipureintro
    sl_unfold_run_names
    rw [View.read_writes_eq_canon _ _ _ (fun y => ⟨_, List.mem_cons_self, View.mem_set_unit_zero hz2 inb_S512x1_S512x1_0_0 y⟩), View.canon_cons_unit_zero hz2]
    simp only [View.readAt_eq_ld, harg2.read_unread, harg3.read_unread, harg4.read_unread, harg5.read_unread, harg6.read_unread, harg7.read_unread, harg8.read_unread, harg9.read_unread, harg10.read_unread, View.ld_unit_zero (S := S512x128) hz2 inb_S512x128_S512x128_0_0, View.ld_unit_zero (S := S512x1) hz2 inb_S512x1_S512x1_0_0, View.readCov_unit_zero (S := S512x1) _ hz2 inb_S512x1_S512x1_0_0]
    rfl
  isplitl [H9]
  · iexists _; isplitr
    swap; · iexact H9
    ipureintro
    sl_unfold_run_names
    rw [View.read_writes_eq_canon _ _ _ (fun y => ⟨_, List.mem_cons_self, View.mem_set_unit_zero hz2 inb_S512x1_S512x1_0_0 y⟩), View.canon_cons_unit_zero hz2]
    simp only [View.readAt_eq_ld, harg2.read_unread, harg3.read_unread, harg4.read_unread, harg5.read_unread, harg6.read_unread, harg7.read_unread, harg8.read_unread, harg9.read_unread, harg10.read_unread, View.ld_unit_zero (S := S512x128) hz2 inb_S512x128_S512x128_0_0, View.ld_unit_zero (S := S512x1) hz2 inb_S512x1_S512x1_0_0, View.readCov_unit_zero (S := S512x1) _ hz2 inb_S512x1_S512x1_0_0]
    rfl
  · iexists _; isplitr
    swap; · iexact H10
    ipureintro
    sl_unfold_run_names
    rw [View.read_writes_eq_canon _ _ _ (fun y => ⟨_, List.mem_cons_self, View.mem_set_unit_zero hz2 inb_S512x1_S512x1_0_0 y⟩), View.canon_cons_unit_zero hz2]
    simp only [View.readAt_eq_ld, harg2.read_unread, harg3.read_unread, harg4.read_unread, harg5.read_unread, harg6.read_unread, harg7.read_unread, harg8.read_unread, harg9.read_unread, harg10.read_unread, View.ld_unit_zero (S := S512x128) hz2 inb_S512x128_S512x128_0_0, View.ld_unit_zero (S := S512x1) hz2 inb_S512x1_S512x1_0_0, View.readCov_unit_zero (S := S512x1) _ hz2 inb_S512x1_S512x1_0_0]
    rfl

end Cert.KernelIdeal.Hand

end
-- ==== Proof.KI.Body.lean ====
/-
  The body obligation. At every point the six input buffers hold their blocks; which of the body's two branches run
  is decided by the column block: the first resets the running columns (and they may hold anything before it), the
  last writes the hinge into the output buffer (which may hold anything before it), and in between neither happens
  and the output buffer is handed back as found. In each case the running columns come back at the step the proof
  data names.
-/
import proofs.«151407_j52183852646786_2_alg».proof.Proof.KI.Data
import proofs.«151407_j52183852646786_2_alg».proof.Proof.KI.RunA
import proofs.«151407_j52183852646786_2_alg».proof.Proof.KI.RunB
import proofs.«151407_j52183852646786_2_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 128 := lt_of_lt_of_eq t.isLt (show cfg0.N = 128 from N_0)
  by_cases h0 : t.val % 8 = 0
  · have h1 : ¬t.val % 8 = 7 := by omega
    rw [Dat.leavesExact_idle (dats m 0 c) 6 t (idleAt0_6 t (fun h => h1 ((hcond0_1 t).mp h))) (noFlush0_6 t (fun h => h1 ((hcond0_1 t).mp h)))]
    rw [scrAt_reset m c t h0]
    unfold stepAt; dsimp only
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    rw [scrAt_step m c t h0]
    unfold stepAt; dsimp only
    by_cases h1 : t.val % 8 = 7
    · rw [show (dats m 0 c).leavesExact 6 t = owns (c : Thread nD τ) (ms0_6 t) fullShare ((dats m 0 c).after 6 t) from by
        unfold Dat.leavesExact; rw [liveAt0_6 t ((hcond0_1 t).mpr h1)], after0_6]
      unfold outAt
      rw [scrAt_step m c t h0]
      unfold stepAt; dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats m 0 c) 6 t (idleAt0_6 t (fun h => h1 ((hcond0_1 t).mp h))) (noFlush0_6 t (fun h => h1 ((hcond0_1 t).mp h)))]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the columns' named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

end Cert.KernelIdeal.Hand

end
-- ==== Proof.KI.Launch1.lean ====
/-
  The launch, first part. Two of the seven windows read one array (the embeddings rounded for the matrix unit, once
  in row blocks and once whole), so the pipeline holds that array's buffer in two halves, one per window; the other
  five arrays are held whole. Here: how @main reaches the region from the host operations before it, and how the
  six distinct buffers behind the windows' arrays, each whole at entry, become the seven windows' arrays.
-/
import proofs.«151407_j52183852646786_2_alg».proof.Proof.KI.Body
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the eight host operations, the region, the four host operations: it reduces to the region continued by
    the later four, at the contents after the earlier eight. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The six distinct buffers behind the seven windows' arrays. -/
theorem arrBufs0_eq (c : Dev nD) (V : (b : Ref sig .tc) → Buf (Elt F) ((c.tc : Thread nD τ).loc b)) :
    (Pipeline.arrBufs spec0 c V : sProp 𝕄)
      = iprop((((c.tc : Thread nD τ).loc main_v0) ↦{fullShare} V main_v0) ∗ (((c.tc : Thread nD τ).loc main_v3) ↦{fullShare} V main_v3) ∗ (((c.tc : Thread nD τ).loc main_v4) ↦{fullShare} V main_v4) ∗ (((c.tc : Thread nD τ).loc main_v5) ↦{fullShare} V main_v5) ∗ (((c.tc : Thread nD τ).loc main_v6) ↦{fullShare} V main_v6) ∗ (((c.tc : Thread nD τ).loc main_v7) ↦{fullShare} V main_v7)) := by
  unfold Pipeline.arrBufs
  exact bigSep_eq_bigSepL_of_eq [main_v0, main_v3, main_v4, main_v5, main_v6, main_v7] (by decide) (by decide) _

/-- A window's array, a whole buffer, is held through its buffer. -/
theorem arr_pt (c : Dev nD) (w : Fin 7) (q : PosShare TreeShare) (X : Buf (Elt F) ((cfg0.win w).arr.view.loc (c.tc : Thread nD τ))) :
    ((cfg0.win w).arr.view.loc (c.tc : Thread nD τ) ↦[(cfg0.win w).arr.view.set]{q} X : sProp 𝕄)
      = (((c.tc : Thread nD τ).loc (Pipeline.arrRef spec0 w)) ↦{q} X : sProp 𝕄) := by
  rw [(arr_whole0 w).set_eq_univ]

/-- The windows' arrays, whole buffers, are held through their buffers, each at its share. -/
theorem arrays_eq' (c : Dev nD) (X : (w : Fin cfg0.W) → Buf (Elt F) ((cfg0.win w).arr.view.loc (c.tc : Thread nD τ))) :
    (dats m 0 c).arrays X = bigSep Finset.univ fun w => (((c.tc : Thread nD τ).loc (Pipeline.arrRef spec0 w)) ↦{(dats m 0 c).share w} X w : sProp 𝕄) := by
  unfold Dat.arrays
  exact bigSep_congr fun w _ => by rw [(arr_whole0 w).set_eq_univ]

set_option maxHeartbeats 1000000 in
/-- The buffers behind the arrays, each whole at the entry contents, are the windows' arrays at entry: the buffer
    of the embeddings is split in two halves, one for each of the two windows on it. -/
theorem hsplit (c : Dev nD) : (Pipeline.arrBufs spec0 c (V m c) : sProp 𝕄) ⊢ (dats m 0 c).arrays ((dats m 0 c).arrAt · 0) := by
  rw [arrBufs0_eq, arrays_eq', bigSep_W0]
  refine Entails.trans (Q := iprop((((c.tc : Thread nD τ).loc main_v0) ↦{fullShare.left} V m c main_v0) ∗ (((c.tc : Thread nD τ).loc main_v0) ↦{fullShare.right} V m c main_v0) ∗ (((c.tc : Thread nD τ).loc main_v3) ↦{fullShare} V m c main_v3) ∗ (((c.tc : Thread nD τ).loc main_v4) ↦{fullShare} V m c main_v4) ∗ (((c.tc : Thread nD τ).loc main_v5) ↦{fullShare} V m c main_v5) ∗ (((c.tc : Thread nD τ).loc main_v6) ↦{fullShare} V m c main_v6) ∗ (((c.tc : Thread nD τ).loc main_v7) ↦{fullShare} V m c main_v7))) ?_ (Entails.of_eq rfl)
  iintro ⟨H0, H3, H4, H5, H6, H7⟩
  ihave HA := (pointsTo_share (PosShare.mem_left_op_right fullShare)).1 $$ H0
  icases HA with ⟨H0l, H0r⟩
  isplitl [H0l]; · iexact H0l
  isplitl [H0r]; · iexact H0r
  isplitl [H3]; · iexact H3
  isplitl [H4]; · iexact H4
  isplitl [H5]; · iexact H5
  isplitl [H6]; · iexact H6
  iexact H7

end Cert.KernelIdeal.Hand

end
-- ==== Proof.KI.Launch2.lean ====
/-
  The launch, second part. After the region four host operations turn the output column into its mean. They touch
  the output array's buffer, which they only read, and buffers that bypass the region; so they run holding exactly
  that buffer and the nine bypassing ones, and the windows' arrays come back as the region left them. The run of
  @main then ends with the result buffer at the mean of the output array after the last write-back, and with the
  two argument arrays as launched.
-/
import proofs.«151407_j52183852646786_2_alg».proof.Proof.KI.Launch1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline (unscopedRestP unscopedRest restRefsP restRefs Prefetch)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The mean of a column of 8192 entries, as the four host operations after the region compute it. -/
def tailVal (o : FVec F S8192x1 .f32) : FVec F S_ .f32 :=
  Host.divf (Host.reduceAdd o (constant S_ .f32 0x00000000#32) reducesTo_S8192x1_S_d0_1 h_S_) (constant S_ .f32 0x46000000#32)

/-- Core c's buffers when the region is left: the output array at what the write-backs left, every other buffer
    as the region found it; -/
def Wout (c : Dev nD) : Valuation τ sig (Elt F) :=
  Function.update (V0 m c) (Proc.devRef .tc main_v7) ((dats m 0 c).arrAt 6 cfg0.N)
/-- and after the four host operations that follow. -/
def Wfin (c : Dev nD) : Valuation τ sig (Elt F) := StableHlo.after hostOps1 (Wout m c)

theorem Wout_v7 (c : Dev nD) : Wout m c (Proc.devRef .tc main_v7) = (dats m 0 c).arrAt 6 cfg0.N := Function.update_self _ _ _
theorem Wout_of_ne (c : Dev nD) (b : Ref sig .tc) (h : b ≠ main_v7) : Wout m c (Proc.devRef .tc b) = V m c b :=
  Function.update_of_ne (StableHlo.devRef_ne_of_ne h) _ _

/-- The ten buffers the later host operations run within. -/
abbrev tailList : List (Ref sig .tc) := [main_v7, main_arg0, main_arg1, main_v1, main_cst, main_v2, main_cst_0, main_v8, main_cst_1, main_v9]
def tailSet : Finset (DevRef τ sig) := tailList.toFinset.map ⟨Proc.devRef (sig := sig) (.tc : Proc τ), Proc.devRef_injective _⟩

theorem held_tail (c : Dev nD) (W : Valuation τ sig (Elt F)) :
    (StableHlo.held (c.tc : Thread nD τ) tailSet W : sProp 𝕄)
      = iprop((((c.tc : Thread nD τ).loc main_v7) ↦{fullShare} W (Proc.devRef .tc main_v7)) ∗ (((c.tc : Thread nD τ).loc main_arg0) ↦{fullShare} W (Proc.devRef .tc main_arg0)) ∗ (((c.tc : Thread nD τ).loc main_arg1) ↦{fullShare} W (Proc.devRef .tc main_arg1)) ∗ (((c.tc : Thread nD τ).loc main_v1) ↦{fullShare} W (Proc.devRef .tc main_v1)) ∗ (((c.tc : Thread nD τ).loc main_cst) ↦{fullShare} W (Proc.devRef .tc main_cst)) ∗ (((c.tc : Thread nD τ).loc main_v2) ↦{fullShare} W (Proc.devRef .tc main_v2)) ∗ (((c.tc : Thread nD τ).loc main_cst_0) ↦{fullShare} W (Proc.devRef .tc main_cst_0)) ∗ (((c.tc : Thread nD τ).loc main_v8) ↦{fullShare} W (Proc.devRef .tc main_v8)) ∗ (((c.tc : Thread nD τ).loc main_cst_1) ↦{fullShare} W (Proc.devRef .tc main_cst_1)) ∗ (((c.tc : Thread nD τ).loc main_v9) ↦{fullShare} W (Proc.devRef .tc main_v9))) := by
  unfold StableHlo.held tailSet
  rw [bigSep_map]
  exact bigSep_eq_bigSepL_of_eq tailList rfl (by decide) _

theorem restP_eq (c : Dev nD) (W : (b : Ref sig .tc) → Buf (Elt F) ((c.tc : Thread nD τ).loc b)) :
    (unscopedRestP (Ix := Unit) (Name := ℕ) (U := UR sig nD τ) (Lvl := ℕ) Prefetch.none spec0 c W : sProp 𝕄)
      = iprop((((c.tc : Thread nD τ).loc main_arg0) ↦{fullShare} W main_arg0) ∗ (((c.tc : Thread nD τ).loc main_arg1) ↦{fullShare} W main_arg1) ∗ (((c.tc : Thread nD τ).loc main_v1) ↦{fullShare} W main_v1) ∗ (((c.tc : Thread nD τ).loc main_cst) ↦{fullShare} W main_cst) ∗ (((c.tc : Thread nD τ).loc main_v2) ↦{fullShare} W main_v2) ∗ (((c.tc : Thread nD τ).loc main_cst_0) ↦{fullShare} W main_cst_0) ∗ (((c.tc : Thread nD τ).loc main_v8) ↦{fullShare} W main_v8) ∗ (((c.tc : Thread nD τ).loc main_cst_1) ↦{fullShare} W main_cst_1) ∗ (((c.tc : Thread nD τ).loc main_v9) ↦{fullShare} W main_v9)) := by
  rw [Pipeline.unscopedRestP_none, unscopedRest0_eq]

theorem tail_sub : ∀ op ∈ (hostOps1 : List (HloOp τ sig (Elt F))), op.bufs ⊆ tailSet := by
  intro op hop
  simp only [hostOps1, List.mem_cons, List.mem_nil_iff, _root_.or_false] at hop
  rcases hop with rfl | rfl | rfl | rfl
  all_goals
    simp only [StableHlo.nullary_bufs, StableHlo.binary_bufs, Finset.insert_subset_iff, Finset.singleton_subset_iff]
    repeat' apply And.intro
    all_goals exact Finset.mem_map_of_mem _ (by decide)

theorem tail_keeps (b : Ref sig .tc) (h0 : b ≠ main_cst_0) (h1 : b ≠ main_v8) (h2 : b ≠ main_cst_1) (h3 : b ≠ main_v9) :
    ∀ op ∈ (hostOps1 : List (HloOp τ sig (Elt F))), Proc.devRef (τ := τ) .tc b ∉ op.writes := by
  intro op hop
  simp only [hostOps1, List.mem_cons, List.mem_nil_iff, _root_.or_false] at hop
  rcases hop with rfl | rfl | rfl | rfl
  all_goals simp only [StableHlo.nullary_writes, StableHlo.binary_writes, Finset.mem_singleton]
  · exact StableHlo.devRef_ne_of_ne h0
  · exact StableHlo.devRef_ne_of_ne h1
  · exact StableHlo.devRef_ne_of_ne h2
  · exact StableHlo.devRef_ne_of_ne h3

theorem Wfin_keep (c : Dev nD) (b : Ref sig .tc) (h0 : b ≠ main_cst_0) (h1 : b ≠ main_v8) (h2 : b ≠ main_cst_1) (h3 : b ≠ main_v9) :
    Wfin m c (Proc.devRef .tc b) = Wout m c (Proc.devRef .tc b) :=
  StableHlo.after_of_forall_not_mem _ _ (tail_keeps b h0 h1 h2 h3)

/-- The output array is not written by the later host operations. -/
theorem Wfin_v7 (c : Dev nD) : Wfin m c (Proc.devRef .tc main_v7) = (dats m 0 c).arrAt 6 cfg0.N :=
  (Wfin_keep m c main_v7 (by decide) (by decide) (by decide) (by decide)).trans (Wout_v7 m c)

set_option backward.isDefEq.respectTransparency.types false in
set_option maxHeartbeats 2000000 in
/-- The four host operations after the region, from the region's exit. -/
theorem htail (𝒱₀ : Variants) (c : Dev nD) (Q' : PUnit → sProp 𝕄) :
    iprop((iprop((dats m 0 c).arrays ((dats m 0 c).arrAt · cfg0.N) ∗ unscopedRestP Prefetch.none spec0 c (fun b => Wfin m c (Proc.devRef .tc b))) -∗ Q' ⟨⟩)
        ∗ boundary (c.tc : Thread nD τ) ∗ (dats m 0 c).arrays ((dats m 0 c).arrAt · cfg0.N) ∗ unscopedRestP Prefetch.none spec0 c (V m c))
      ⊢ wp frame (wpE (defs (F := F)) (Variants.lift 𝒱₀) (c.tc : Thread nD τ) none) Set.univ (Pipeline.chain [StableHlo.seq hostOps1]) Q' := by
  rw [arrays_eq', bigSep_W0, restP_eq, restP_eq, Pipeline.chain_cons]
  iintro ⟨Hk, Hb, ⟨A0, A1, A2, A3, A4, A5, A6⟩, ⟨B0, B1, B2, B3, B4, B5, B6, B7, B8⟩⟩
  iapply (StableHlo.wp_seq (Variants.lift 𝒱₀) none Set.univ c (tailSet) _ hostOps1 tail_sub (List.forall_iff_forall_mem.mp hostOps1_fresh) (Wout m c)) $$ [Hb A6 B0 B1 B2 B3 B4 B5 B6 B7 B8]
  · rw [held_tail, Wout_v7, Wout_of_ne m c main_arg0 (by decide), Wout_of_ne m c main_arg1 (by decide), Wout_of_ne m c main_v1 (by decide), Wout_of_ne m c main_cst (by decide), Wout_of_ne m c main_v2 (by decide), Wout_of_ne m c main_cst_0 (by decide), Wout_of_ne m c main_v8 (by decide), Wout_of_ne m c main_cst_1 (by decide), Wout_of_ne m c main_v9 (by decide)]
    isplitl [Hb]; · iexact Hb
    isplitl [A6]; · iexact A6
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iintro ⟨Hb, HT⟩
  rw [Pipeline.chain_nil, wp_pure]
  imodintro
  ihave HT' := (Entails.of_eq (held_tail c (StableHlo.after hostOps1 (Wout m c)))) $$ HT
  icases HT' with ⟨T7, B0, B1, B2, B3, B4, B5, B6, B7, B8⟩
  ihave T7' := (Entails.of_eq (congrArg (fun X => (((c.tc : Thread nD τ).loc main_v7) ↦{fullShare} X : sProp 𝕄)) (show StableHlo.after hostOps1 (Wout m c) (Proc.devRef .tc main_v7) = (dats m 0 c).arrAt 6 cfg0.N from Wfin_v7 m c))) $$ T7
  iapply Hk
  isplitl [A0 A1 A2 A3 A4 A5 T7']
  · isplitl [A0]; · iexact A0
    isplitl [A1]; · iexact A1
    isplitl [A2]; · iexact A2
    isplitl [A3]; · iexact A3
    isplitl [A4]; · iexact A4
    isplitl [A5]; · iexact A5
    iexact T7'
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8

/-- A buffer none of the eight host operations before the region writes is, at the region's entry, as launched. -/
theorem V_keep (c : Dev nD) (b : Ref sig .tc)
    (h : ∀ r ∈ ([main_v0, main_v1, main_cst, main_v2, main_v3, main_v4, main_v5, main_v6] : List (Ref sig .tc)), b ≠ r) :
    V m c b = m ((c.tc : Thread nD τ).loc b) := by
  refine (StableHlo.after_of_forall_not_mem _ _ (fun op hop => ?_)).trans rfl
  simp only [List.flatten_cons, List.flatten_nil, List.append_nil, hostOps0, List.mem_cons, List.mem_nil_iff, _root_.or_false] at hop
  rcases hop with rfl | rfl | rfl | rfl | rfl | rfl | rfl | rfl
  all_goals simp only [StableHlo.nullary_writes, StableHlo.unary_writes, StableHlo.binary_writes, StableHlo.reshape_writes, Finset.mem_singleton]
  · exact StableHlo.devRef_ne_of_ne (h main_v0 (by simp))
  · exact StableHlo.devRef_ne_of_ne (h main_v1 (by simp))
  · exact StableHlo.devRef_ne_of_ne (h main_cst (by simp))
  · exact StableHlo.devRef_ne_of_ne (h main_v2 (by simp))
  · exact StableHlo.devRef_ne_of_ne (h main_v3 (by simp))
  · exact StableHlo.devRef_ne_of_ne (h main_v4 (by simp))
  · exact StableHlo.devRef_ne_of_ne (h main_v5 (by simp))
  · exact StableHlo.devRef_ne_of_ne (h main_v6 (by simp))

/-- The result buffer after the four later host operations: the mean of the output array. -/
theorem Wfin_v9 (c : Dev nD) : Wfin m c (Proc.devRef .tc main_v9) = tailVal ((dats m 0 c).arrAt 6 cfg0.N) := by
  unfold Wfin tailVal
  after_results
  rw [Wout_v7]

set_option backward.isDefEq.respectTransparency.types false in
set_option maxHeartbeats 4000000 in
/-- At the compiled mesh, from any memory with zero counters: every weakly fair execution of @main terminates, with
    the result buffer at the mean of the output array as the last write-back left it, and the two argument arrays
    as launched. -/
theorem run_main : θ_run (defs (F := F)) (onTc (τ := τ) (main (F := F))) ⟨m, fun _ => 0, ρ⟩ (fun r => ∀ c : Dev nD,
      r.2.mem ((c.tc : Thread nD τ).loc main_v9) = tailVal ((dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  have hcell : Function.Injective (Pipeline.cellOf (nD := nD) (τ := τ) (Pipeline.pin (pcfgs (F := F)) fun q => (cfgs q).toPCfg_adm)) := cellOf_inj
  exact Pipeline.θ_run_region_pf_tail (pcfgs (F := F)) (fun q => (cfgs q).toPCfg_adm) (dats m) () hcell 0 winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells (Pipeline.pin (pcfgs (F := F)) fun q => (cfgs q).toPCfg_adm) hcell) (Pipeline.launchToks (Pipeline.pin (pcfgs (F := F)) fun q => (cfgs q).toPCfg_adm) hcell))
    (hu₀ := by
      iintro Hu; imodintro
      isplitl [Hu]; · iapply (show (ownU _ : sProp 𝕄) ⊢ BI.own (emb₁ (initOf (Pipeline.cells (Pipeline.pin (pcfgs (F := F)) fun q => (cfgs q).toPCfg_adm) hcell) (Pipeline.launchToks (Pipeline.pin (pcfgs (F := F)) fun q => (cfgs q).toPCfg_adm) hcell))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (fun b => Wfin m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m Variants.none c Q')
    (QY := fun c s => ∀ b ∈ restRefsP sig Prefetch.none spec0, s.mem ((c.tc : Thread nD τ).loc b) = Wfin m c (Proc.devRef .tc b))
    (hY := fun c s' => by
      iintro ⟨-, HU, HSI⟩
      unfold unscopedRestP
      imodintro
      iapply (pointsTo_read_all (restRefsP sig Prefetch.none spec0) (fun b => (c.tc : Thread nD τ).loc b) (fun b => Wfin m c (Proc.devRef .tc b)) s')
      isplitl [HU] <;> iassumption)
    (hQ := fun s h c => ⟨((h c).2.2 main_v9 (by decide)).trans (Wfin_v9 m c),
      ((h c).2.2 main_arg0 (by decide)).trans ((Wfin_keep m c main_arg0 (by decide) (by decide) (by decide) (by decide)).trans ((Wout_of_ne m c main_arg0 (by decide)).trans (V_keep m c main_arg0 (by decide)))),
      ((h c).2.2 main_arg1 (by decide)).trans ((Wfin_keep m c main_arg1 (by decide) (by decide) (by decide) (by decide)).trans ((Wout_of_ne m c main_arg1 (by decide)).trans (V_keep m c main_arg1 (by decide))))⟩)

/-- info: 'Cert.KernelIdeal.Hand.run_main' depends on axioms: [propext, Classical.choice, Quot.sound] -/
#guard_msgs in #print axioms run_main

end Cert.KernelIdeal.Hand

end
-- ==== Proof.KI.PayAt.lean ====
/-
  The kernel body's pure payloads read at an index, at the ideal values.

  The body computes, for a block of 512 rows against a block of 1024 columns: the tile of distances
  `d(p, q) = sqrt (max (‖row p‖² + ‖col q‖² − 2 ⟨row p, col q⟩) 0 + ε)`, the tile of label agreements, the global row
  numbers, and from them the running row maximum over same-label columns off the diagonal and the running row minimum
  over other-label columns; at the last column block the hinge `max (P − N + 1) 0`. Each statement names one element
  of one of those values by its coordinates.
-/
import proofs.«151407_j52183852646786_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.PayAt

open Idealize.ShloMosaic Idealize.ShloMosaic.ValueIdx Cert.KernelIdeal Cert.KernelIdeal.Gen

variable {α : Type}

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The tile of distances -/

theorem gram_lhs0 (i : S512x1024.Idx) (c : dot_S512x128_S1024x128_S512x1024_1_1_0_0_n_n.contr.Idx) :
    (dot_S512x128_S1024x128_S512x1024_1_1_0_0_n_n.lhsIdx i c 0).val = (i 0).val := by
  unfold DotDims.lhsIdx
  rw [dif_neg (show ¬(0 : Fin S512x128.rank) ∈ dot_S512x128_S1024x128_S512x1024_1_1_0_0_n_n.lhsBatch by decide),
    dif_pos (show (0 : Fin S512x128.rank) ∈ dot_S512x128_S1024x128_S512x1024_1_1_0_0_n_n.lhsNonContracting by decide)]
  rfl
theorem gram_lhs1 (i : S512x1024.Idx) (c : dot_S512x128_S1024x128_S512x1024_1_1_0_0_n_n.contr.Idx) :
    (dot_S512x128_S1024x128_S512x1024_1_1_0_0_n_n.lhsIdx i c 1).val = (c ⟨0, by decide⟩).val :=
  dot_S512x128_S1024x128_S512x1024_1_1_0_0_n_n.lhsIdx_val_of_single rfl i c
theorem gram_rhs0 (i : S512x1024.Idx) (c : dot_S512x128_S1024x128_S512x1024_1_1_0_0_n_n.contr.Idx) :
    (dot_S512x128_S1024x128_S512x1024_1_1_0_0_n_n.rhsIdx i c 0).val = (i 1).val := by
  unfold DotDims.rhsIdx
  rw [dif_neg (show ¬(0 : Fin S1024x128.rank) ∈ dot_S512x128_S1024x128_S512x1024_1_1_0_0_n_n.rhsBatch by decide),
    dif_pos (show (0 : Fin S1024x128.rank) ∈ dot_S512x128_S1024x128_S512x1024_1_1_0_0_n_n.rhsNonContracting by decide)]
  rfl
theorem gram_rhs1 (i : S512x1024.Idx) (c : dot_S512x128_S1024x128_S512x1024_1_1_0_0_n_n.contr.Idx) :
    (dot_S512x128_S1024x128_S512x1024_1_1_0_0_n_n.rhsIdx i c 1).val = (c ⟨0, by decide⟩).val :=
  dot_S512x128_S1024x128_S512x1024_1_1_0_0_n_n.rhsIdx_val_of_single rfl i c

/-- The contraction of a row block against a column block, both stored row-major over the 128 features: entry
    `(p, q)` is the inner product of row `p` of the first with row `q` of the second. -/
theorem gram_at (x2 : Vec Ideal S512x128 .bf16) (x3s : Vec Ideal S1024x128 .bf16) (p : Fin 512) (q : Fin 1024) :
    matmul (F := Ideal) (φ₁ := .bf16) (φ₂ := .bf16) dot_S512x128_S1024x128_S512x1024_1_1_0_0_n_n none x2 x3s (constant (F := Ideal) S512x1024 .f32 0x00000000#32) (ix2 p q)
      = ∑ k : Fin 128, x2 (ix2 p k) * x3s (ix2 q k) := by
  simp only [matmul]
  rw [Ideal.matmul_constant_zero_apply, ← Equiv.sum_comp (contrEquiv1 dot_S512x128_S1024x128_S512x1024_1_1_0_0_n_n 128 rfl rfl).symm]
  refine Finset.sum_congr rfl fun k _ => ?_
  have hk := contrEquiv1_symm_val dot_S512x128_S1024x128_S512x1024_1_1_0_0_n_n 128 rfl rfl k
  have el : dot_S512x128_S1024x128_S512x1024_1_1_0_0_n_n.lhsIdx (ix2 p q) ((contrEquiv1 dot_S512x128_S1024x128_S512x1024_1_1_0_0_n_n 128 rfl rfl).symm k) = ix2 p k :=
    funext fun a => Fin.ext (by
      match a with
      | ⟨0, _⟩ => exact gram_lhs0 _ _
      | ⟨1, _⟩ => exact (gram_lhs1 _ _).trans hk)
  have er : dot_S512x128_S1024x128_S512x1024_1_1_0_0_n_n.rhsIdx (ix2 p q) ((contrEquiv1 dot_S512x128_S1024x128_S512x1024_1_1_0_0_n_n 128 rfl rfl).symm k) = ix2 q k :=
    funext fun a => Fin.ext (by
      match a with
      | ⟨0, _⟩ => exact gram_rhs0 _ _
      | ⟨1, _⟩ => exact (gram_rhs1 _ _).trans hk)
  rw [el, er]

/-- The tile of distances at `(p, q)`: the square root of the clamped squared distance (row norm plus column norm
    minus twice the inner product) plus the small constant. -/
theorem tile_at (x2 : Vec Ideal S512x128 .bf16) (x3s : Vec Ideal S1024x128 .bf16) (x4 : Vec Ideal S512x1 .f32)
    (x5s : Vec Ideal S1x1024 .f32) (p : Fin 512) (q : Fin 1024) :
    k0_pay6 x2 x3s x4 x5s (ix2 p q)
      = Ideal.sqrt (max (x4 (ix2 p 0) + x5s (ix2 0 q)
            - Ideal.ofBits .f32 0x40000000#32 * ∑ k : Fin 128, x2 (ix2 p k) * x3s (ix2 q k))
          (Ideal.ofBits .f32 0x00000000#32) + Ideal.ofBits .f32 0x2B8CBCCC#32) := by
  unfold k0_pay6
  simp only [shapeCast_self]
  show Ideal.sqrt (max (broadcastTo S512x1024 x4 broadcasts_S512x1_S512x1024 (ix2 p q)
        + broadcastTo S512x1024 x5s broadcasts_S1x1024_S512x1024 (ix2 p q)
        - Ideal.ofBits .f32 0x40000000#32
          * matmul (F := Ideal) (φ₁ := .bf16) (φ₂ := .bf16) dot_S512x128_S1024x128_S512x1024_1_1_0_0_n_n none x2 x3s (constant (F := Ideal) S512x1024 .f32 0x00000000#32) (ix2 p q))
      (Ideal.ofBits .f32 0x00000000#32) + Ideal.ofBits .f32 0x2B8CBCCC#32) = _
  rw [gram_at, broadcastTo_a1_ab_apply x4, broadcastTo_1b_ab_apply x5s]

/-! ## The label comparison and the global row number -/

/-- The label tile at `(p, q)` is the one-bit answer to "row `p`'s label is column `q`'s label". -/
theorem same_at (x6 : Vec Ideal S512x1 .i32) (x7s : Vec Ideal S1x1024 .i32) (p : Fin 512) (q : Fin 1024) :
    k0_pay7 x6 x7s (ix2 p q) = if x6 (ix2 p 0) = x7s (ix2 0 q) then 1#1 else 0#1 := by
  unfold k0_pay7
  simp only [shapeCast_self]
  show IntOp.cmpi .eq (broadcastTo S512x1024 x6 broadcasts_S512x1_S512x1024 (ix2 p q))
      (broadcastTo S512x1024 x7s broadcasts_S1x1024_S512x1024 (ix2 p q)) = _
  rw [broadcastTo_a1_ab_apply x6, broadcastTo_1b_ab_apply x7s]
  show BitVec.ofBool (x6 (ix2 p 0) == x7s (ix2 0 q)) = _
  by_cases h : x6 (ix2 p 0) = x7s (ix2 0 q)
  · rw [if_pos h, beq_iff_eq.2 h]; rfl
  · rw [if_neg h, beq_eq_false_iff_ne.2 h]; rfl

/-- The label tile is `1` exactly where the labels agree. -/
theorem same_at_eq_one (x6 : Vec Ideal S512x1 .i32) (x7s : Vec Ideal S1x1024 .i32) (p : Fin 512) (q : Fin 1024) :
    k0_pay7 x6 x7s (ix2 p q) = 1#1 ↔ x6 (ix2 p 0) = x7s (ix2 0 q) := by
  rw [same_at]
  by_cases h : x6 (ix2 p 0) = x7s (ix2 0 q)
  · rw [if_pos h]; exact ⟨fun _ => h, fun _ => rfl⟩
  · rw [if_neg h]; exact ⟨fun h' => absurd h' (by decide), fun h' => absurd h' h⟩

/-- The global row number of local row `p` in row block `i 0`: `512 * block + p` as a 32-bit word. -/
theorem rowid_at (i : grid0.Coords) (p : Fin 512) :
    k0_pay8 i (ix2 p 0) = BitVec.ofNat 32 (512 * (i 0).val + p.val) := by
  unfold k0_pay8
  show BitVec.ofNat 32 (i 0).val * 512#32 + iota .tc S512x1 32 [0] iota_S512x1_d0_w32 (ix2 p 0) = _
  rw [iota_single_apply, Nat.mul_comm, BitVec.ofNat_add, BitVec.ofNat_mul]

/-! ## The hinge and the two starting columns -/

/-- The hinge of row `p`: the positive distance minus the negative one plus one, clamped below at zero. -/
theorem hinge_at (s0 s1 : Vec Ideal S512x1 .f32) (p : Fin 512) :
    k0_pay3 s0 s1 (ix2 p 0)
      = max (s0 (ix2 p 0) - s1 (ix2 p 0) + Ideal.ofBits .f32 0x3F800000#32) (Ideal.ofBits .f32 0x00000000#32) := rfl

/-- The running positive distance starts at zero. -/
theorem init_pos_at (p : Fin 512) : k0_pay4 (F := Ideal) (ix2 p 0) = 0 := by
  unfold k0_pay4
  rw [shapeCast_self]
  exact Ideal.ofBits_zero_f32

/-- The running negative distance starts at plus infinity. -/
theorem init_neg_at (p : Fin 512) : k0_pay5 (F := Ideal) (ix2 p 0) = ⊤ := by
  unfold k0_pay5
  rw [shapeCast_self]
  show Ideal.ofBits .f32 0x7F800000#32 = ⊤
  simp [Ideal.ofBits, Ideal.ieee]

/-! ## Row reductions -/

/-- The index of the tile that drops to row `p` with column `q` inserted is `(p, q)`. -/
theorem lift_at (h : S512x1024.Reduces [1] S512) (p : Fin 512) (q : Fin 1024) : h.lift (ix1 p) q = ix2 p q :=
  funext fun a => Fin.ext (by match a with | ⟨0, _⟩ => rfl | ⟨1, _⟩ => rfl)

/-- The f32 word of minus infinity is the bottom of the extended reals. -/
theorem ofBits_neg_inf : Ideal.ofBits .f32 0xFF800000#32 = ⊥ := by simp [Ideal.ofBits, Ideal.ieee]

/-- The f32 word of plus infinity is the top of the extended reals. -/
theorem ofBits_pos_inf : Ideal.ofBits .f32 0x7F800000#32 = ⊤ := by simp [Ideal.ofBits, Ideal.ieee]

/-- A tile's row maximum from minus infinity: at row `p`, the maximum over the 1024 columns. -/
theorem rowmax_at (src : FVec Ideal S512x1024 .f32) (h : S512x1024.Reduces [1] S512) (hφ : FKind.Formats .f32)
    (hacc : (0xFF800000#32 : BitVec 32) = FKind.maximumf.neutral .f32 hφ) (p : Fin 512) :
    multiReduction (F := Ideal) .maximumf [1] S512 src 0xFF800000#32 h hφ hacc (ix1 p)
      = Finset.univ.fold max ⊥ (fun q : Fin 1024 => src (ix2 p q)) := by
  refine (Ideal.multiReduction_maximumf_single src 0xFF800000#32 h hφ hacc (ix1 p)).trans ?_
  show Finset.univ.fold max (Ideal.ofBits .f32 0xFF800000#32) (fun q : Fin 1024 => src (h.lift (ix1 p) q)) = _
  rw [ofBits_neg_inf]
  exact Finset.fold_congr fun q _ => congrArg src (lift_at h p q)

/-- A tile's row minimum from plus infinity: at row `p`, the minimum over the 1024 columns. -/
theorem rowmin_at (src : FVec Ideal S512x1024 .f32) (h : S512x1024.Reduces [1] S512) (hφ : FKind.Formats .f32)
    (hacc : (0x7F800000#32 : BitVec 32) = FKind.minimumf.neutral .f32 hφ) (p : Fin 512) :
    multiReduction (F := Ideal) .minimumf [1] S512 src 0x7F800000#32 h hφ hacc (ix1 p)
      = Finset.univ.fold min ⊤ (fun q : Fin 1024 => src (ix2 p q)) := by
  refine (multiReduction_minimumf_eq_fold src 0x7F800000#32 h hφ hacc (ix1 p)).trans ?_
  refine (h.fold_filter_drop_single _ _ src (ix1 p)).trans ?_
  show Finset.univ.fold min (Ideal.ofBits .f32 0x7F800000#32) (fun q : Fin 1024 => src (h.lift (ix1 p) q)) = _
  rw [ofBits_pos_inf]
  exact Finset.fold_congr fun q _ => congrArg src (lift_at h p q)

/-- On one-bit words: `s and not b` is `1` exactly when `s` is `1` and the compared words differ. -/
theorem and_not_eq_one_iff (s : BitVec 1) (c : Bool) :
    (IntOp.andi s (IntOp.xori (BitVec.ofBool c) 1#1) = 1#1) ↔ (s = 1#1 ∧ c = false) := by
  revert s c; decide

/-- On a one-bit word: `not s` is `1` exactly when `s` is not `1`. -/
theorem not_eq_one_iff (s : BitVec 1) : (IntOp.xori s 1#1 = 1#1) ↔ ¬ s = 1#1 := by
  revert s; decide

/-- The running positive distance of row `p` after a column block: the larger of the previous value and the block's
    maximum of the distances to the columns with the row's label and another global number (zero elsewhere). -/
theorem pos_at (v4 : BitVec 32) (d : FVec Ideal S512x1024 .f32) (s : IVec S512x1024 1) (rows : IVec S512x1 32)
    (prev : Vec Ideal S512x1 .f32) (p : Fin 512) :
    k0_pay1 v4 d s rows (iota .tc S1x1024 32 [1] iota_S1x1024_d1_w32) prev (ix2 p 0)
      = max (prev (ix2 p 0)) (Finset.univ.fold max ⊥ (fun q : Fin 1024 =>
          if s (ix2 p q) = 1#1 ∧ rows (ix2 p 0) ≠ v4 + BitVec.ofNat 32 q.val then d (ix2 p q) else 0)) := by
  unfold k0_pay1
  simp only [shapeCast_self]
  refine congrArg (max (prev (ix2 p 0))) ?_
  refine (shapeCast_a_a1_apply _ shapeCasts_S512_S512x1 p 0).trans ?_
  refine (rowmax_at _ reduces_S512x1024_S512 _ _ p).trans ?_
  refine Finset.fold_congr fun q _ => ?_
  show Scalar.select (IntOp.andi (s (ix2 p q)) (IntOp.xori (IntOp.cmpi .eq
        (broadcastTo S512x1024 rows broadcasts_S512x1_S512x1024 (ix2 p q))
        (broadcastTo S512x1024 (addi (broadcast S1x1024 v4) (iota .tc S1x1024 32 [1] iota_S1x1024_d1_w32))
          broadcasts_S1x1024_S512x1024 (ix2 p q))) 1#1))
      (d (ix2 p q)) (Ideal.ofBits .f32 0x00000000#32) = _
  rw [broadcastTo_a1_ab_apply rows, broadcastTo_1b_ab_apply, Ideal.ofBits_zero_f32]
  show Scalar.select (IntOp.andi (s (ix2 p q)) (IntOp.xori (BitVec.ofBool (rows (ix2 p 0) ==
      v4 + iota .tc S1x1024 32 [1] iota_S1x1024_d1_w32 (ix2 0 q))) 1#1)) (d (ix2 p q)) 0 = _
  rw [iota_single_apply]
  show (if IntOp.andi (s (ix2 p q)) (IntOp.xori (BitVec.ofBool (rows (ix2 p 0) ==
      v4 + BitVec.ofNat 32 q.val)) 1#1) = 1#1 then d (ix2 p q) else 0) = _
  refine if_congr ?_ rfl rfl
  rw [and_not_eq_one_iff, beq_eq_false_iff_ne]

/-- The running negative distance of row `p` after a column block: the smaller of the previous value and the block's
    minimum of the distances to the columns with another label (plus infinity elsewhere). -/
theorem neg_at (d : FVec Ideal S512x1024 .f32) (s : IVec S512x1024 1) (prev : Vec Ideal S512x1 .f32) (p : Fin 512) :
    k0_pay2 d s prev (ix2 p 0)
      = min (prev (ix2 p 0)) (Finset.univ.fold min ⊤ (fun q : Fin 1024 =>
          if s (ix2 p q) = 1#1 then ⊤ else d (ix2 p q))) := by
  unfold k0_pay2
  simp only [shapeCast_self]
  refine congrArg (min (prev (ix2 p 0))) ?_
  refine (shapeCast_a_a1_apply _ shapeCasts_S512_S512x1 p 0).trans ?_
  refine (rowmin_at _ reduces_S512x1024_S512 _ _ p).trans ?_
  refine Finset.fold_congr fun q _ => ?_
  show (if IntOp.xori (s (ix2 p q)) 1#1 = 1#1 then d (ix2 p q) else Ideal.ofBits .f32 0x7F800000#32) = _
  rw [ofBits_pos_inf]
  by_cases hs : s (ix2 p q) = 1#1
  · rw [if_pos hs, if_neg ((not_eq_one_iff _).not.2 (not_not.2 hs))]
  · rw [if_neg hs, if_pos ((not_eq_one_iff _).2 hs)]

end Cert.KernelIdeal.PayAt

end
-- ==== Proof.Spec.lean ====
import Idealize.ShloMosaic.PureOps.Ideal
import Idealize.ShloMosaic.PureOps.Ideal.Laws
import Idealize.ShloMosaic.Lib.ValueIdx

/-!
# The batch-hard triplet loss as a function over the extended reals

For embeddings `e : [8192, 128]` and labels `l : [8192]`:

* `dist e r c = sqrt (max (|e r|² + |e c|² - 2 ⟨e r, e c⟩) 0 + ε)`, the regularised distance between rows `r` and `c`;
* `P e l r`, the largest distance from row `r` to another row with the same label (entries that do not qualify count `0`);
* `N e l r`, the smallest distance from row `r` to a row with another label (entries that do not qualify count `+∞`);
* `hinge e l r = max (P - N + 1) 0` and the loss is the mean of the hinge over the rows.

The laws below are the order-theoretic facts a blocked evaluation of `P` and `N` rests on: a maximum (minimum) over the
8192 columns is the maximum (minimum) over 8 blocks of the maxima (minima) over the 1024 columns of each block; a running
maximum (minimum) started anywhere is the start joined (met) with the maximum (minimum) of what it has seen; and `P` is
never negative, because the diagonal entry of its row counts `0`.
-/

noncomputable section

open scoped BigOperators

namespace Cert.Triplet

open Idealize.ShloMosaic Idealize.ShloMosaic.ValueIdx

/-- The index set of the embeddings: 8192 rows, 128 features. -/
abbrev SE : Shape := ⟨2, ![8192, 128]⟩
/-- The index set of the labels: one per row. -/
abbrev SL : Shape := ⟨1, ![8192]⟩

/-! ## The words that occur -/

/-- The word of `+∞`. -/
theorem ofBits_pinf : Ideal.ofBits .f32 0x7F800000#32 = ⊤ := by simp [Ideal.ofBits, Ideal.ieee]
/-- The word of `-∞`. -/
theorem ofBits_ninf : Ideal.ofBits .f32 0xFF800000#32 = ⊥ := by simp [Ideal.ofBits, Ideal.ieee]

/-! ## The specification -/

/-- The squared norm of row `r`. -/
def sq (e : SE.Idx → EReal) (r : Fin 8192) : EReal := ∑ k : Fin 128, e (ix2 r k) * e (ix2 r k)

/-- The inner product of rows `r` and `c`. -/
def gram (e : SE.Idx → EReal) (r c : Fin 8192) : EReal := ∑ k : Fin 128, e (ix2 r k) * e (ix2 c k)

/-- The regularised distance of rows `r` and `c`: the square root of the squared distance (by the Gram expansion,
    clamped at `0`) plus `ε`; `2` and `ε` are kept as the words the programs hold. -/
def dist (e : SE.Idx → EReal) (r c : Fin 8192) : EReal :=
  Ideal.sqrt (max (sq e r + sq e c - Ideal.ofBits .f32 0x40000000#32 * gram e r c) 0 + Ideal.ofBits .f32 0x2B8CBCCC#32)

/-- What column `c` contributes to row `r`'s furthest positive: the distance if the labels agree and `c` is another
    row, `0` otherwise. -/
def posv (e : SE.Idx → EReal) (l : SL.Idx → BitVec 32) (r c : Fin 8192) : EReal :=
  if l (ix1 r) = l (ix1 c) ∧ r ≠ c then dist e r c else 0

/-- What column `c` contributes to row `r`'s closest negative: the distance if the labels differ, `+∞` otherwise. -/
def negv (e : SE.Idx → EReal) (l : SL.Idx → BitVec 32) (r c : Fin 8192) : EReal :=
  if l (ix1 r) ≠ l (ix1 c) then dist e r c else ⊤

/-- Row `r`'s furthest positive. -/
def P (e : SE.Idx → EReal) (l : SL.Idx → BitVec 32) (r : Fin 8192) : EReal :=
  Finset.univ.fold max ⊥ (fun c : Fin 8192 => posv e l r c)

/-- Row `r`'s closest negative. -/
def N (e : SE.Idx → EReal) (l : SL.Idx → BitVec 32) (r : Fin 8192) : EReal :=
  Finset.univ.fold min ⊤ (fun c : Fin 8192 => negv e l r c)

/-- Row `r`'s hinge, the margin `1` kept as its word. -/
def hinge (e : SE.Idx → EReal) (l : SL.Idx → BitVec 32) (r : Fin 8192) : EReal :=
  max (P e l r - N e l r + Ideal.ofBits .f32 0x3F800000#32) 0

/-- The mean over the 8192 rows: the sum divided by the word of `8192`. -/
def mean (h : Fin 8192 → EReal) : EReal := Ideal.div (∑ r : Fin 8192, h r) (Ideal.ofBits .f32 0x46000000#32)

/-! ## Folds of `max` and `min` are suprema and infima -/

theorem fold_max_eq_sup {ι : Type*} (s : Finset ι) (f : ι → EReal) : s.fold max ⊥ f = s.sup f := rfl

theorem fold_min_eq_inf {ι : Type*} (s : Finset ι) (f : ι → EReal) : s.fold min ⊤ f = s.inf f := rfl

/-! ## A maximum over the columns, by blocks -/

/-- The maximum over 8192 columns is the maximum over the 8 blocks of the maximum over each block's 1024 columns. -/
theorem fold_max_tiles (f : Fin 8192 → EReal) :
    Finset.univ.fold max ⊥ f
      = Finset.univ.fold max ⊥ (fun j : Fin 8 => Finset.univ.fold max ⊥ (fun q : Fin 1024 => f ⟨1024 * j.val + q.val, by omega⟩)) := by
  simp only [fold_max_eq_sup]
  refine le_antisymm (Finset.sup_le fun c _ => ?_) (Finset.sup_le fun j _ => Finset.sup_le fun q _ => Finset.le_sup (Finset.mem_univ _))
  have hc : c = ⟨1024 * (⟨c.val / 1024, by omega⟩ : Fin 8).val + (⟨c.val % 1024, by omega⟩ : Fin 1024).val, by omega⟩ :=
    Fin.ext (by simp only; omega)
  calc f c = (fun q : Fin 1024 => f ⟨1024 * (⟨c.val / 1024, by omega⟩ : Fin 8).val + q.val, by omega⟩) ⟨c.val % 1024, by omega⟩ :=
        congrArg f hc
    _ ≤ Finset.univ.sup (fun q : Fin 1024 => f ⟨1024 * (⟨c.val / 1024, by omega⟩ : Fin 8).val + q.val, by omega⟩) :=
        Finset.le_sup (f := fun q : Fin 1024 => f ⟨1024 * (⟨c.val / 1024, by omega⟩ : Fin 8).val + q.val, by omega⟩) (Finset.mem_univ _)
    _ ≤ _ := Finset.le_sup (f := fun j : Fin 8 => Finset.univ.sup (fun q : Fin 1024 => f ⟨1024 * j.val + q.val, by omega⟩))
        (Finset.mem_univ (⟨c.val / 1024, by omega⟩ : Fin 8))

/-- The minimum over 8192 columns is the minimum over the 8 blocks of the minimum over each block's 1024 columns. -/
theorem fold_min_tiles (f : Fin 8192 → EReal) :
    Finset.univ.fold min ⊤ f
      = Finset.univ.fold min ⊤ (fun j : Fin 8 => Finset.univ.fold min ⊤ (fun q : Fin 1024 => f ⟨1024 * j.val + q.val, by omega⟩)) := by
  simp only [fold_min_eq_inf]
  refine le_antisymm (Finset.le_inf fun j _ => Finset.le_inf fun q _ => Finset.inf_le (Finset.mem_univ _)) (Finset.le_inf fun c _ => ?_)
  have hc : c = ⟨1024 * (⟨c.val / 1024, by omega⟩ : Fin 8).val + (⟨c.val % 1024, by omega⟩ : Fin 1024).val, by omega⟩ :=
    Fin.ext (by simp only; omega)
  calc _ ≤ Finset.univ.inf (fun q : Fin 1024 => f ⟨1024 * (⟨c.val / 1024, by omega⟩ : Fin 8).val + q.val, by omega⟩) :=
        Finset.inf_le (f := fun j : Fin 8 => Finset.univ.inf (fun q : Fin 1024 => f ⟨1024 * j.val + q.val, by omega⟩))
          (Finset.mem_univ (⟨c.val / 1024, by omega⟩ : Fin 8))
    _ ≤ (fun q : Fin 1024 => f ⟨1024 * (⟨c.val / 1024, by omega⟩ : Fin 8).val + q.val, by omega⟩) ⟨c.val % 1024, by omega⟩ :=
        Finset.inf_le (f := fun q : Fin 1024 => f ⟨1024 * (⟨c.val / 1024, by omega⟩ : Fin 8).val + q.val, by omega⟩) (Finset.mem_univ _)
    _ = f c := (congrArg f hc).symm

/-! ## The diagonal: `P` is never negative -/

/-- The diagonal entry `c = r` of row `r` counts `0`, so the row's maximum is at least `0`. -/
theorem P_zero_le (e : SE.Idx → EReal) (l : SL.Idx → BitVec 32) (r : Fin 8192) : 0 ≤ P e l r := by
  have h : posv e l r r = 0 := if_neg fun h => h.2 rfl
  calc (0 : EReal) = posv e l r r := h.symm
    _ ≤ P e l r := Finset.le_sup (f := fun c : Fin 8192 => posv e l r c) (Finset.mem_univ r)

/-- Hence starting the maximum at `0` changes nothing. -/
theorem max_zero_P (e : SE.Idx → EReal) (l : SL.Idx → BitVec 32) (r : Fin 8192) : max 0 (P e l r) = P e l r :=
  max_eq_right (P_zero_le e l r)

/-! ## Running maxima and minima -/

/-- The running maximum after `n` steps: `max (… (max (max init (g 0)) (g 1)) …) (g (n - 1))`. -/
def runMax (init : EReal) (g : ℕ → EReal) : ℕ → EReal
  | 0 => init
  | n + 1 => max (runMax init g n) (g n)

/-- The running minimum after `n` steps. -/
def runMin (init : EReal) (g : ℕ → EReal) : ℕ → EReal
  | 0 => init
  | n + 1 => min (runMin init g n) (g n)

/-- A running maximum is its start joined with the maximum of what it has seen. -/
theorem runMax_eq (init : EReal) (g : ℕ → EReal) (n : ℕ) :
    runMax init g n = max init ((Finset.range n).fold max ⊥ g) := by
  induction n with
  | zero => simp [runMax]
  | succ n ih =>
    rw [runMax, ih, Finset.range_add_one, Finset.fold_insert Finset.notMem_range_self, max_assoc, max_comm (g n)]

/-- A running minimum is its start met with the minimum of what it has seen. -/
theorem runMin_eq (init : EReal) (g : ℕ → EReal) (n : ℕ) :
    runMin init g n = min init ((Finset.range n).fold min ⊤ g) := by
  induction n with
  | zero => simp [runMin]
  | succ n ih =>
    rw [runMin, ih, Finset.range_add_one, Finset.fold_insert Finset.notMem_range_self, min_assoc, min_comm (g n)]

/-- The maximum over the first `n` naturals is the maximum over `Fin n`. -/
theorem fold_max_range (g : ℕ → EReal) (n : ℕ) :
    (Finset.range n).fold max ⊥ g = Finset.univ.fold max ⊥ (fun j : Fin n => g j.val) := by
  simp only [fold_max_eq_sup]
  refine le_antisymm (Finset.sup_le fun i hi => ?_) (Finset.sup_le fun j _ => Finset.le_sup (Finset.mem_range.mpr j.isLt))
  exact Finset.le_sup (f := fun j : Fin n => g j.val) (Finset.mem_univ (⟨i, Finset.mem_range.mp hi⟩ : Fin n))

/-- The minimum over the first `n` naturals is the minimum over `Fin n`. -/
theorem fold_min_range (g : ℕ → EReal) (n : ℕ) :
    (Finset.range n).fold min ⊤ g = Finset.univ.fold min ⊤ (fun j : Fin n => g j.val) := by
  simp only [fold_min_eq_inf]
  refine le_antisymm (Finset.le_inf fun j _ => Finset.inf_le (Finset.mem_range.mpr j.isLt)) (Finset.le_inf fun i hi => ?_)
  exact Finset.inf_le (f := fun j : Fin n => g j.val) (Finset.mem_univ (⟨i, Finset.mem_range.mp hi⟩ : Fin n))

/-- Eight steps of a running maximum whose `j`-th step sees the maximum of block `j`: the start joined with the maximum
    over all the columns. -/
theorem runMax_tiles (f : Fin 8192 → EReal) (g : ℕ → EReal) (init : EReal)
    (hg : ∀ j : Fin 8, g j.val = Finset.univ.fold max ⊥ (fun q : Fin 1024 => f ⟨1024 * j.val + q.val, by omega⟩)) :
    runMax init g 8 = max init (Finset.univ.fold max ⊥ f) := by
  rw [runMax_eq, fold_max_range, fold_max_tiles]
  exact congrArg (max init) (Finset.fold_congr fun j _ => hg j)

/-- Eight steps of a running minimum whose `j`-th step sees the minimum of block `j`: the start met with the minimum
    over all the columns. -/
theorem runMin_tiles (f : Fin 8192 → EReal) (g : ℕ → EReal) (init : EReal)
    (hg : ∀ j : Fin 8, g j.val = Finset.univ.fold min ⊤ (fun q : Fin 1024 => f ⟨1024 * j.val + q.val, by omega⟩)) :
    runMin init g 8 = min init (Finset.univ.fold min ⊤ f) := by
  rw [runMin_eq, fold_min_range, fold_min_tiles]
  exact congrArg (min init) (Finset.fold_congr fun j _ => hg j)

end Cert.Triplet

end
-- ==== Proof.KI.ScrValue.lean ====
/-
  The output block of a last column block is the specification's hinge.

  At a grid point in row block `a` and column block `j` the step of the two running columns at local row `p` joins
  the first with the maximum, over the block's 1024 columns `c`, of the distance from global row `r = 512 a + p` to
  `c` where the labels agree and `c ≠ r` (zero elsewhere), and meets the second with the minimum of the distance where
  the labels differ (plus infinity elsewhere). Along a row block the first column therefore is the running maximum
  from `0`, the second the running minimum from `+∞`, over the column blocks seen so far; after the eighth these are
  `max 0 P = P` (the diagonal entry of `P` is `0`) and `min ⊤ N = N`, and the hinge of the two is the specification's.
-/
import proofs.«151407_j52183852646786_2_alg».proof.Proof.KI.PayAt
import proofs.«151407_j52183852646786_2_alg».proof.Proof.KI.Step
import proofs.«151407_j52183852646786_2_alg».proof.Proof.KI.Data
import proofs.«151407_j52183852646786_2_alg».proof.Proof.Spec

noncomputable section

namespace Cert.KernelIdeal.ScrValue

open Idealize.ShloMosaic Idealize.ShloMosaic.ValueIdx Idealize.ShloMosaic.TcCoe Idealize.SL.Sem
open Cert.KernelIdeal Cert.KernelIdeal.Gen Cert.KernelIdeal.Hand Cert.KernelIdeal.PayAt
open Cert.Triplet (SE SL sq gram posv negv hinge runMax runMin)

/-! ## Global rows and columns of a grid point -/

/-- The global row of local row `p` at a point in row block `i 0`. -/
def rowG (i : grid0.Coords) (p : Fin 512) : Fin 8192 :=
  ⟨512 * (i 0).val + p.val, by have h : (i 0).val < 16 := (i 0).isLt; omega⟩

/-- The global column of local column `q` at a point in column block `i 1`. -/
def colG (i : grid0.Coords) (q : Fin 1024) : Fin 8192 :=
  ⟨1024 * (i 1).val + q.val, by have h : (i 1).val < 8 := (i 1).isLt; omega⟩

/-- The point's columns of the resident embeddings are the global columns. -/
theorem colE_at (i : grid0.Coords) (x3 : Vec Ideal S8192x128 .bf16) (q : Fin 1024) (k : Fin 128) :
    colE i x3 (ix2 q k) = x3 (ix2 (colG i q) k) := by
  unfold colE
  show x3 ((Rect.unit (s := S8192x128) (k0_off1 i) S1024x128.size (k0_off1_inb i)).idx (ix2 q k)) = _
  refine congrArg x3 (funext fun a => Fin.ext ?_)
  match a with
  | ⟨0, _⟩ =>
    show k0_off1 i 0 + 1 * q.val = 1024 * (i 1).val + q.val
    rw [k0_off1_eq]; show 1024 * (i 1).val + 1 * q.val = _; rw [Nat.one_mul]
  | ⟨1, _⟩ =>
    show k0_off1 i 1 + 1 * k.val = k.val
    rw [k0_off1_eq]; show 0 + 1 * k.val = _; rw [Nat.one_mul, Nat.zero_add]

/-- The point's entries of the resident squared norms are the global columns'. -/
theorem colSq_at (i : grid0.Coords) (x5 : Vec Ideal S1x8192 .f32) (q : Fin 1024) :
    colSq i x5 (ix2 0 q) = x5 (ix2 0 (colG i q)) := by
  unfold colSq
  show x5 ((Rect.unit (s := S1x8192) (k0_off2 i) S1x1024.size (k0_off2_inb i)).idx (ix2 0 q)) = _
  refine congrArg x5 (funext fun a => Fin.ext ?_)
  match a with
  | ⟨0, _⟩ =>
    show k0_off2 i 0 + 1 * 0 = 0
    rw [k0_off2_eq]; rfl
  | ⟨1, _⟩ =>
    show k0_off2 i 1 + 1 * q.val = 1024 * (i 1).val + q.val
    rw [k0_off2_eq]; show 1024 * (i 1).val + 1 * q.val = _; rw [Nat.one_mul]

/-- The point's entries of the resident labels are the global columns'. -/
theorem colL_at (i : grid0.Coords) (x7 : Vec Ideal S1x8192 .i32) (q : Fin 1024) :
    colL i x7 (ix2 0 q) = x7 (ix2 0 (colG i q)) := by
  unfold colL
  show x7 ((Rect.unit (s := S1x8192) (k0_off2 i) S1x1024.size (k0_off2_inb i)).idx (ix2 0 q)) = _
  refine congrArg x7 (funext fun a => Fin.ext ?_)
  match a with
  | ⟨0, _⟩ =>
    show k0_off2 i 0 + 1 * 0 = 0
    rw [k0_off2_eq]; rfl
  | ⟨1, _⟩ =>
    show k0_off2 i 1 + 1 * q.val = 1024 * (i 1).val + q.val
    rw [k0_off2_eq]; show 1024 * (i 1).val + 1 * q.val = _; rw [Nat.one_mul]

/-! ## Words of row and column numbers -/

/-- The first column of the point's block, as the word the body holds. -/
theorem mult1_eq (i : grid0.Coords) : k0_mult1 i = BitVec.ofNat 32 (1024 * (i 1).val) := by
  unfold k0_mult1
  show BitVec.ofNat 32 (i 1).val * 1024#32 = _
  rw [Nat.mul_comm, BitVec.ofNat_mul]

/-- Two numbers below `2 ^ 32` differ as 32-bit words exactly when they differ. -/
theorem ofNat_ne_iff (a b : ℕ) (ha : a < 2 ^ 32) (hb : b < 2 ^ 32) :
    BitVec.ofNat 32 a ≠ BitVec.ofNat 32 b ↔ a ≠ b := by
  refine ⟨fun h hab => h (hab ▸ rfl), fun h hab => h ?_⟩
  have := congrArg BitVec.toNat hab
  rwa [BitVec.toNat_ofNat, BitVec.toNat_ofNat, Nat.mod_eq_of_lt ha, Nat.mod_eq_of_lt hb] at this

/-- The body's test "the global row is not the global column", on words, is the test on the numbers. -/
theorem diag_iff (i : grid0.Coords) (p : Fin 512) (q : Fin 1024) :
    k0_pay8 i (ix2 p 0) ≠ k0_mult1 i + BitVec.ofNat 32 q.val ↔ rowG i p ≠ colG i q := by
  rw [rowid_at, mult1_eq, ← BitVec.ofNat_add]
  have h0 : (i 0).val < 16 := (i 0).isLt
  have h1 : (i 1).val < 8 := (i 1).isLt
  rw [ofNat_ne_iff _ _ (by omega) (by omega)]
  exact not_congr (Fin.ext_iff (a := rowG i p) (b := colG i q)).symm

/-! ## One point's step, read at a row -/

section Step
variable (i : grid0.Coords) (e : SE.Idx → EReal) (l : SL.Idx → BitVec 32)
  (x2 : Vec Ideal S512x128 .bf16) (x3 : Vec Ideal S8192x128 .bf16) (x4 : Vec Ideal S512x1 .f32)
  (x5 : Vec Ideal S1x8192 .f32) (x6 : Vec Ideal S512x1 .i32) (x7 : Vec Ideal S1x8192 .i32)

/-- The tile of distances is the specification's distance between the global row and the global column. -/
theorem tile_eq_dist
    (h2 : ∀ (p : Fin 512) (k : Fin 128), x2 (ix2 p k) = e (ix2 (rowG i p) k))
    (h3 : ∀ (r : Fin 8192) (k : Fin 128), x3 (ix2 r k) = e (ix2 r k))
    (h4 : ∀ p : Fin 512, x4 (ix2 p 0) = sq e (rowG i p))
    (h5 : ∀ r : Fin 8192, x5 (ix2 0 r) = sq e r)
    (p : Fin 512) (q : Fin 1024) : tile i x2 x3 x4 x5 (ix2 p q) = Cert.Triplet.dist e (rowG i p) (colG i q) := by
  unfold tile
  rw [tile_at, h4, colSq_at, h5, Ideal.ofBits_zero_f32]
  unfold Cert.Triplet.dist gram
  refine congrArg (fun s => Ideal.sqrt (max (sq e (rowG i p) + sq e (colG i q) - Ideal.ofBits .f32 0x40000000#32 * s) 0
    + Ideal.ofBits .f32 0x2B8CBCCC#32)) ?_
  refine Finset.sum_congr rfl fun k _ => ?_
  rw [h2, colE_at, h3]

/-- The tile of label agreements is `1` exactly where the global row's label is the global column's. -/
theorem same_eq_one_iff
    (h6 : ∀ p : Fin 512, x6 (ix2 p 0) = l (ix1 (rowG i p)))
    (h7 : ∀ r : Fin 8192, x7 (ix2 0 r) = l (ix1 r))
    (p : Fin 512) (q : Fin 1024) : same i x6 x7 (ix2 p q) = 1#1 ↔ l (ix1 (rowG i p)) = l (ix1 (colG i q)) := by
  unfold same
  rw [same_at_eq_one, h6, colL_at, h7]

/-- The running largest same-label distance after the point: the previous value joined with the block's maximum of
    the specification's positive entries of the row. -/
theorem stepPos_at
    (h2 : ∀ (p : Fin 512) (k : Fin 128), x2 (ix2 p k) = e (ix2 (rowG i p) k))
    (h3 : ∀ (r : Fin 8192) (k : Fin 128), x3 (ix2 r k) = e (ix2 r k))
    (h4 : ∀ p : Fin 512, x4 (ix2 p 0) = sq e (rowG i p))
    (h5 : ∀ r : Fin 8192, x5 (ix2 0 r) = sq e r)
    (h6 : ∀ p : Fin 512, x6 (ix2 p 0) = l (ix1 (rowG i p)))
    (h7 : ∀ r : Fin 8192, x7 (ix2 0 r) = l (ix1 r))
    (prev : Vec Ideal S512x1 .f32) (p : Fin 512) :
    stepPos i x2 x3 x4 x5 x6 x7 prev (ix2 p 0)
      = max (prev (ix2 p 0)) (Finset.univ.fold max ⊥ (fun q : Fin 1024 => posv e l (rowG i p) (colG i q))) := by
  unfold stepPos
  rw [pos_at]
  refine congrArg (max (prev (ix2 p 0))) (Finset.fold_congr fun q _ => ?_)
  unfold posv
  rw [tile_eq_dist i e x2 x3 x4 x5 h2 h3 h4 h5]
  refine if_congr (and_congr (same_eq_one_iff i l x6 x7 h6 h7 p q) (diag_iff i p q)) rfl rfl

/-- The running smallest other-label distance after the point: the previous value met with the block's minimum of
    the specification's negative entries of the row. -/
theorem stepNeg_at
    (h2 : ∀ (p : Fin 512) (k : Fin 128), x2 (ix2 p k) = e (ix2 (rowG i p) k))
    (h3 : ∀ (r : Fin 8192) (k : Fin 128), x3 (ix2 r k) = e (ix2 r k))
    (h4 : ∀ p : Fin 512, x4 (ix2 p 0) = sq e (rowG i p))
    (h5 : ∀ r : Fin 8192, x5 (ix2 0 r) = sq e r)
    (h6 : ∀ p : Fin 512, x6 (ix2 p 0) = l (ix1 (rowG i p)))
    (h7 : ∀ r : Fin 8192, x7 (ix2 0 r) = l (ix1 r))
    (prev : Vec Ideal S512x1 .f32) (p : Fin 512) :
    stepNeg i x2 x3 x4 x5 x6 x7 prev (ix2 p 0)
      = min (prev (ix2 p 0)) (Finset.univ.fold min ⊤ (fun q : Fin 1024 => negv e l (rowG i p) (colG i q))) := by
  unfold stepNeg
  rw [neg_at]
  refine congrArg (min (prev (ix2 p 0))) (Finset.fold_congr fun q _ => ?_)
  unfold negv
  rw [tile_eq_dist i e x2 x3 x4 x5 h2 h3 h4 h5]
  by_cases hs : l (ix1 (rowG i p)) = l (ix1 (colG i q))
  · rw [if_pos ((same_eq_one_iff i l x6 x7 h6 h7 p q).2 hs), if_neg (not_not.2 hs)]
  · rw [if_neg (mt (same_eq_one_iff i l x6 x7 h6 h7 p q).1 hs), if_pos hs]

end Step

/-! ## The grid: point `t` is row block `t / 8`, column block `t % 8` -/

theorem coords0 : ∀ t : Fin cfg0.N, ((grid0.coords t) 0).val = t.val / 8 := by decide +kernel
theorem coords1 : ∀ t : Fin cfg0.N, ((grid0.coords t) 1).val = t.val % 8 := by decide +kernel

/-- The global row at point `t`. -/
theorem rowG_coords (t : Fin cfg0.N) (p : Fin 512) : rowG (grid0.coords t) p = rowOf t p :=
  Fin.ext (by show 512 * ((grid0.coords t) 0).val + p.val = 512 * (t.val / 8) + p.val; rw [coords0])

/-- Column `q` of column block `j`, as a column of the whole array (reduced modulo 8192 so that it is one for every `j`). -/
def colN (j : ℕ) (q : Fin 1024) : Fin 8192 := ⟨(1024 * j + q.val) % 8192, Nat.mod_lt _ (by decide)⟩

/-- The global column at point `t`. -/
theorem colG_coords (t : Fin cfg0.N) (q : Fin 1024) : colG (grid0.coords t) q = colN (t.val % 8) q :=
  Fin.ext (by
    show 1024 * ((grid0.coords t) 1).val + q.val = (1024 * (t.val % 8) + q.val) % 8192
    rw [coords1]
    exact (Nat.mod_eq_of_lt (by omega)).symm)

/-- Row `r`'s maximum of positive entries over column block `j`. -/
def gP (e : SE.Idx → EReal) (l : SL.Idx → BitVec 32) (r : Fin 8192) (j : ℕ) : EReal :=
  Finset.univ.fold max ⊥ (fun q : Fin 1024 => posv e l r (colN j q))

/-- Row `r`'s minimum of negative entries over column block `j`. -/
def gN (e : SE.Idx → EReal) (l : SL.Idx → BitVec 32) (r : Fin 8192) (j : ℕ) : EReal :=
  Finset.univ.fold min ⊤ (fun q : Fin 1024 => negv e l r (colN j q))

/-! ## The two running columns along a row block -/

section Run
variable (m : (ℓ : Loc nD τ sig) → Buf (Elt Ideal) ℓ) (c : Dev nD) (e : SE.Idx → EReal) (l : SL.Idx → BitVec 32)

/-- The pair of columns after the first point, and after a later one. -/
theorem scrAt_zero (hn : 0 < cfg0.N) :
    scrAt m c 0 hn = stepAt m c ⟨0, hn⟩ (k0_pay4 (F := Ideal), k0_pay5 (F := Ideal)) := rfl
theorem scrAt_succ (n : ℕ) (hn : n + 1 < cfg0.N) :
    scrAt m c (n + 1) hn = stepAt m c ⟨n + 1, hn⟩
      (if (n + 1) % 8 = 0 then (k0_pay4 (F := Ideal), k0_pay5 (F := Ideal)) else scrAt m c n (Nat.lt_of_succ_lt hn)) := rfl

variable
  (h0 : ∀ (t : Fin cfg0.N) (p : Fin 512) (k : Fin 128), (iblk m c 0 t : Vec Ideal S512x128 .bf16) (ix2 p k) = e (ix2 (rowOf t p) k))
  (h1 : ∀ (t : Fin cfg0.N) (r : Fin 8192) (k : Fin 128), (iblk m c 1 t : Vec Ideal S8192x128 .bf16) (ix2 r k) = e (ix2 r k))
  (h2 : ∀ (t : Fin cfg0.N) (p : Fin 512), (iblk m c 2 t : Vec Ideal S512x1 .f32) (ix2 p 0) = sq e (rowOf t p))
  (h3 : ∀ (t : Fin cfg0.N) (r : Fin 8192), (iblk m c 3 t : Vec Ideal S1x8192 .f32) (ix2 0 r) = sq e r)
  (h4 : ∀ (t : Fin cfg0.N) (p : Fin 512), (iblk m c 4 t : Vec Ideal S512x1 .i32) (ix2 p 0) = l (ix1 (rowOf t p)))
  (h5 : ∀ (t : Fin cfg0.N) (r : Fin 8192), (iblk m c 5 t : Vec Ideal S1x8192 .i32) (ix2 0 r) = l (ix1 r))

include h0 h1 h2 h3 h4 h5

/-- One point's step of the first column at a row. -/
theorem stepAt_fst (t : Fin cfg0.N) (prev : Vec Ideal S512x1 .f32 × Vec Ideal S512x1 .f32) (p : Fin 512) :
    (stepAt m c t prev).1 (ix2 p 0) = max (prev.1 (ix2 p 0)) (gP e l (rowOf t p) (t.val % 8)) := by
  show stepPos (grid0.coords t) (iblk m c 0 t) (iblk m c 1 t) (iblk m c 2 t) (iblk m c 3 t) (iblk m c 4 t) (iblk m c 5 t) prev.1 (ix2 p 0) = _
  rw [stepPos_at (grid0.coords t) e l _ _ _ _ _ _
    (fun p k => (h0 t p k).trans (by rw [rowG_coords])) (h1 t) (fun p => (h2 t p).trans (by rw [rowG_coords])) (h3 t)
    (fun p => (h4 t p).trans (by rw [rowG_coords])) (h5 t)]
  unfold gP
  rw [rowG_coords]
  exact congrArg (max (prev.1 (ix2 p 0))) (Finset.fold_congr fun q _ => by rw [colG_coords])

/-- One point's step of the second column at a row. -/
theorem stepAt_snd (t : Fin cfg0.N) (prev : Vec Ideal S512x1 .f32 × Vec Ideal S512x1 .f32) (p : Fin 512) :
    (stepAt m c t prev).2 (ix2 p 0) = min (prev.2 (ix2 p 0)) (gN e l (rowOf t p) (t.val % 8)) := by
  show stepNeg (grid0.coords t) (iblk m c 0 t) (iblk m c 1 t) (iblk m c 2 t) (iblk m c 3 t) (iblk m c 4 t) (iblk m c 5 t) prev.2 (ix2 p 0) = _
  rw [stepNeg_at (grid0.coords t) e l _ _ _ _ _ _
    (fun p k => (h0 t p k).trans (by rw [rowG_coords])) (h1 t) (fun p => (h2 t p).trans (by rw [rowG_coords])) (h3 t)
    (fun p => (h4 t p).trans (by rw [rowG_coords])) (h5 t)]
  unfold gN
  rw [rowG_coords]
  exact congrArg (min (prev.2 (ix2 p 0))) (Finset.fold_congr fun q _ => by rw [colG_coords])

/-- After point `n`, in column block `n % 8`, the two columns at a row are the running maximum from `0` and the running
    minimum from `+∞` over the row's column blocks `0 … n % 8`. -/
theorem scr_run (p : Fin 512) : ∀ (n : ℕ) (hn : n < cfg0.N),
    (scrAt m c n hn).1 (ix2 p 0) = runMax 0 (gP e l (rowOf ⟨n, hn⟩ p)) (n % 8 + 1)
      ∧ (scrAt m c n hn).2 (ix2 p 0) = runMin ⊤ (gN e l (rowOf ⟨n, hn⟩ p)) (n % 8 + 1)
  | 0, hn => by
    rw [scrAt_zero, stepAt_fst m c e l h0 h1 h2 h3 h4 h5, stepAt_snd m c e l h0 h1 h2 h3 h4 h5]
    dsimp only
    rw [init_pos_at, init_neg_at]
    exact ⟨rfl, rfl⟩
  | n + 1, hn => by
    have ih := scr_run p n (Nat.lt_of_succ_lt hn)
    rw [scrAt_succ, stepAt_fst m c e l h0 h1 h2 h3 h4 h5, stepAt_snd m c e l h0 h1 h2 h3 h4 h5]
    by_cases hz : (n + 1) % 8 = 0
    · rw [if_pos hz]
      dsimp only
      rw [init_pos_at, init_neg_at, hz]
      exact ⟨rfl, rfl⟩
    · rw [if_neg hz]
      have hr : rowOf ⟨n, Nat.lt_of_succ_lt hn⟩ p = rowOf ⟨n + 1, hn⟩ p :=
        Fin.ext (by show 512 * (n / 8) + p.val = 512 * ((n + 1) / 8) + p.val; omega)
      have hm : (n + 1) % 8 = n % 8 + 1 := by omega
      rw [ih.1, ih.2, hr]
      dsimp only
      rw [hm]
      exact ⟨rfl, rfl⟩

/-- At a last column block the output block is the specification's hinge of the global rows. -/
theorem out_value (t : Fin cfg0.N) (ht : t.val % 8 = 7) (p : Fin 512) :
    outAt m c t (ix2 p 0) = hinge e l (rowOf t p) := by
  unfold outAt
  rw [hinge_at]
  obtain ⟨hP, hN⟩ := scr_run m c e l h0 h1 h2 h3 h4 h5 p t.val t.isLt
  rw [hP, hN, ht]
  have hgP : ∀ j : Fin 8, gP e l (rowOf t p) j.val
      = Finset.univ.fold max ⊥ (fun q : Fin 1024 => posv e l (rowOf t p) ⟨1024 * j.val + q.val, by omega⟩) :=
    fun j => Finset.fold_congr fun q _ => congrArg (posv e l (rowOf t p)) (Fin.ext (Nat.mod_eq_of_lt (by omega)))
  have hgN : ∀ j : Fin 8, gN e l (rowOf t p) j.val
      = Finset.univ.fold min ⊤ (fun q : Fin 1024 => negv e l (rowOf t p) ⟨1024 * j.val + q.val, by omega⟩) :=
    fun j => Finset.fold_congr fun q _ => congrArg (negv e l (rowOf t p)) (Fin.ext (Nat.mod_eq_of_lt (by omega)))
  show max (runMax 0 (gP e l (rowOf t p)) 8 - runMin ⊤ (gN e l (rowOf t p)) 8 + _) _ = _
  rw [Cert.Triplet.runMax_tiles (posv e l (rowOf t p)) _ 0 hgP, Cert.Triplet.runMin_tiles (negv e l (rowOf t p)) _ ⊤ hgN,
    Ideal.ofBits_zero_f32]
  show max (max 0 (Cert.Triplet.P e l (rowOf t p)) - min ⊤ (Cert.Triplet.N e l (rowOf t p)) + _) 0 = _
  rw [Cert.Triplet.max_zero_P, min_eq_right le_top]
  rfl

end Run

end Cert.KernelIdeal.ScrValue

end
-- ==== Proof.KI.Blocks.lean ====
/-
  The six input blocks of a grid point, entry by entry, as functions of the two arguments. The embeddings reach the
  region unchanged over the extended reals; the squared norms are the row sums of squares from zero, laid out once as
  a column and once as a row; the labels likewise as a column and as a row. A blocked window's block at point t is
  rows 512 (t / 8) … 512 (t / 8) + 511 of its array, a resident window's block the whole array.
-/
import proofs.«151407_j52183852646786_2_alg».proof.Proof.KI.Data
import proofs.«151407_j52183852646786_2_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Blocks

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

/-! ## Where a block's element sits in its array

The grid has 16 row blocks and 8 column blocks, the column block moving fastest: point `t` has row block `t / 8`.
The blocked windows take row block `t / 8` of their arrays, the resident windows the whole array. -/

section Any
variable {F : FTy → Type} [FloatOps F]
variable (m : (ℓ : Loc nD τ sig) → Buf (Elt F) ℓ)

theorem idx0 : ∀ t : Fin cfg0.N, win0_0.index t (0 : Fin 2) = t.val / 8 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val / 8 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val / 8 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val / 8 ∧ win0_6.index t (1 : Fin 2) = 0 :=
  (by decide +kernel : ∀ t : Fin grid0.N, _)

/-- Window 0: local row `x 0` of the block at point `t` is row `512 (t / 8) + x 0` of the embeddings. -/
theorem iblk0_apply (c : Dev nD) (t : Fin cfg0.N) (x : S512x128.Idx) (k : S8192x128.Idx)
    (hk0 : (k 0).val = 512 * (t.val / 8) + (x 0).val) (hk1 : (k 1).val = (x 1).val) :
    (iblk m c 0 t : Vec F S512x128 .bf16) x = (V m c main_v0 : S8192x128.Idx → Elt F .bf16) k := by
  obtain ⟨h0, h1⟩ := idx0 t
  unfold iblk
  rw [View.read_apply]
  show V m c main_v0 _ = V m c main_v0 _
  congr 1
  funext a
  apply Fin.ext
  match a with
  | ⟨0, _⟩ => show win0_0.index t 0 * 512 + 1 * (x 0).val = (k 0).val; rw [h0, hk0]; omega
  | ⟨1, _⟩ => show win0_0.index t 1 * 128 + 1 * (x 1).val = (k 1).val; rw [h1, hk1]; omega

/-- Window 1: the block is the whole array of embeddings. -/
theorem iblk1_apply (c : Dev nD) (t : Fin cfg0.N) (x : S8192x128.Idx) :
    (iblk m c 1 t : Vec F S8192x128 .bf16) x = (V m c main_v0 : S8192x128.Idx → Elt F .bf16) x := by
  obtain ⟨h0, h1⟩ := idx1 t
  unfold iblk
  rw [View.read_apply]
  show V m c main_v0 _ = V m c main_v0 _
  congr 1
  funext a
  apply Fin.ext
  match a with
  | ⟨0, _⟩ => show win0_1.index t 0 * 8192 + 1 * (x 0).val = (x 0).val; rw [h0]; omega
  | ⟨1, _⟩ => show win0_1.index t 1 * 128 + 1 * (x 1).val = (x 1).val; rw [h1]; omega

/-- Window 2: local row `x 0` of the block at point `t` is row `512 (t / 8) + x 0` of the column of squared norms. -/
theorem iblk2_apply (c : Dev nD) (t : Fin cfg0.N) (x : S512x1.Idx) (k : S8192x1.Idx)
    (hk0 : (k 0).val = 512 * (t.val / 8) + (x 0).val) (hk1 : (k 1).val = (x 1).val) :
    (iblk m c 2 t : Vec F S512x1 .f32) x = (V m c main_v3 : S8192x1.Idx → Elt F .f32) k := by
  obtain ⟨h0, h1⟩ := idx2 t
  unfold iblk
  rw [View.read_apply]
  show V m c main_v3 _ = V m c main_v3 _
  congr 1
  funext a
  apply Fin.ext
  match a with
  | ⟨0, _⟩ => show win0_2.index t 0 * 512 + 1 * (x 0).val = (k 0).val; rw [h0, hk0]; omega
  | ⟨1, _⟩ => show win0_2.index t 1 * 1 + 1 * (x 1).val = (k 1).val; rw [h1, hk1]; omega

/-- Window 3: the block is the whole row of squared norms. -/
theorem iblk3_apply (c : Dev nD) (t : Fin cfg0.N) (x : S1x8192.Idx) :
    (iblk m c 3 t : Vec F S1x8192 .f32) x = (V m c main_v4 : S1x8192.Idx → Elt F .f32) x := by
  obtain ⟨h0, h1⟩ := idx3 t
  unfold iblk
  rw [View.read_apply]
  show V m c main_v4 _ = V m c main_v4 _
  congr 1
  funext a
  apply Fin.ext
  match a with
  | ⟨0, _⟩ => show win0_3.index t 0 * 1 + 1 * (x 0).val = (x 0).val; rw [h0]; omega
  | ⟨1, _⟩ => show win0_3.index t 1 * 8192 + 1 * (x 1).val = (x 1).val; rw [h1]; omega

/-- Window 4: local row `x 0` of the block at point `t` is row `512 (t / 8) + x 0` of the column of labels. -/
theorem iblk4_apply (c : Dev nD) (t : Fin cfg0.N) (x : S512x1.Idx) (k : S8192x1.Idx)
    (hk0 : (k 0).val = 512 * (t.val / 8) + (x 0).val) (hk1 : (k 1).val = (x 1).val) :
    (iblk m c 4 t : Vec F S512x1 .i32) x = (V m c main_v5 : S8192x1.Idx → Elt F .i32) k := by
  obtain ⟨h0, h1⟩ := idx4 t
  unfold iblk
  rw [View.read_apply]
  show V m c main_v5 _ = V m c main_v5 _
  congr 1
  funext a
  apply Fin.ext
  match a with
  | ⟨0, _⟩ => show win0_4.index t 0 * 512 + 1 * (x 0).val = (k 0).val; rw [h0, hk0]; omega
  | ⟨1, _⟩ => show win0_4.index t 1 * 1 + 1 * (x 1).val = (k 1).val; rw [h1, hk1]; omega

/-- Window 5: the block is the whole row of labels. -/
theorem iblk5_apply (c : Dev nD) (t : Fin cfg0.N) (x : S1x8192.Idx) :
    (iblk m c 5 t : Vec F S1x8192 .i32) x = (V m c main_v6 : S1x8192.Idx → Elt F .i32) x := by
  obtain ⟨h0, h1⟩ := idx5 t
  unfold iblk
  rw [View.read_apply]
  show V m c main_v6 _ = V m c main_v6 _
  congr 1
  funext a
  apply Fin.ext
  match a with
  | ⟨0, _⟩ => show win0_5.index t 0 * 1 + 1 * (x 0).val = (x 0).val; rw [h0]; omega
  | ⟨1, _⟩ => show win0_5.index t 1 * 8192 + 1 * (x 1).val = (x 1).val; rw [h1]; omega

end Any

/-! ## The arrays the region finds, over the extended reals

Before the region the host rounds the embeddings to the narrower format (no change over the extended reals), sums
the squares of each row from `0`, and lays the squared norms and the labels out as a column and as a row. -/

section AtIdeal
variable (m : (ℓ : Loc nD τ sig) → Buf (Elt Ideal) ℓ)

/-- The embeddings, as the region finds them rounded. -/
theorem V_v0 (c : Dev nD) :
    (V m c main_v0 : S8192x128.Idx → EReal)
      = truncf (F := Ideal) .bf16 (m ((c : Thread nD τ).loc main_arg0) : S8192x128.Idx → EReal) bitsLt_bf16_f32 := by
  dsimp only [V, V0]
  simp only [hostOps0, List.flatten_cons, List.flatten_nil, List.append_nil]
  after_results

/-- The squared norms as a column. -/
theorem V_v3 (c : Dev nD) :
    (V m c main_v3 : S8192x1.Idx → EReal)
      = broadcastInDim S8192x1 ![0] bcast_S8192_S8192x1_0 (Host.reduceAdd (F := Ideal)
          (mulf (F := Ideal) (m ((c : Thread nD τ).loc main_arg0) : S8192x128.Idx → EReal) (m ((c : Thread nD τ).loc main_arg0) : S8192x128.Idx → EReal))
          (constant (F := Ideal) S_ .f32 0x00000000#32) reducesTo_S8192x128_S8192_d1 h_S_) := by
  dsimp only [V, V0]
  simp only [hostOps0, List.flatten_cons, List.flatten_nil, List.append_nil]
  after_results

/-- The squared norms as a row: the column relaid. -/
theorem V_v4 (c : Dev nD) :
    (V m c main_v4 : S1x8192.Idx → EReal)
      = shapeCast S1x8192 (broadcastInDim S8192x1 ![0] bcast_S8192_S8192x1_0 (Host.reduceAdd (F := Ideal)
          (mulf (F := Ideal) (m ((c : Thread nD τ).loc main_arg0) : S8192x128.Idx → EReal) (m ((c : Thread nD τ).loc main_arg0) : S8192x128.Idx → EReal))
          (constant (F := Ideal) S_ .f32 0x00000000#32) reducesTo_S8192x128_S8192_d1 h_S_)) shapeCasts_S8192x1_S1x8192 := by
  dsimp only [V, V0]
  simp only [hostOps0, List.flatten_cons, List.flatten_nil, List.append_nil]
  after_results
  rfl

/-- The labels as a column. -/
theorem V_v5 (c : Dev nD) :
    (V m c main_v5 : S8192x1.Idx → BitVec 32)
      = shapeCast S8192x1 (m ((c : Thread nD τ).loc main_arg1) : S8192.Idx → BitVec 32) shapeCasts_S8192_S8192x1 := by
  dsimp only [V, V0]
  simp only [hostOps0, List.flatten_cons, List.flatten_nil, List.append_nil]
  after_results
  rfl

/-- The labels as a row. -/
theorem V_v6 (c : Dev nD) :
    (V m c main_v6 : S1x8192.Idx → BitVec 32)
      = shapeCast S1x8192 (m ((c : Thread nD τ).loc main_arg1) : S8192.Idx → BitVec 32) shapeCasts_S8192_S1x8192 := by
  dsimp only [V, V0]
  simp only [hostOps0, List.flatten_cons, List.flatten_nil, List.append_nil]
  after_results
  rfl

/-- The host's row sums of squares from the zero word are the squared norms. -/
theorem sqcol_at (e : S8192x128.Idx → EReal) (r : Fin 8192) :
    broadcastInDim S8192x1 ![0] bcast_S8192_S8192x1_0 (Host.reduceAdd (F := Ideal) (mulf (F := Ideal) e e)
      (constant (F := Ideal) S_ .f32 0x00000000#32) reducesTo_S8192x128_S8192_d1 h_S_) (ix2 r (0 : Fin 1)) = Cert.Triplet.sq e r := by
  rw [broadcastInDim_apply _ bcast_S8192_S8192x1_0 _ (ix2 r (0 : Fin 1)) (ix1 r) (fun a => match a with
    | ⟨0, _⟩ => by show r.val = if (8192 : Nat) = 1 then 0 else r.val; rw [if_neg (by decide)])]
  simp only [Host.reduceAdd, Ideal.hostReduceAdd_def]
  rw [Ideal.hostReduceAdd_single reducesTo_S8192x128_S8192_d1 (by decide)]
  show Ideal.ofBits .f32 0x00000000#32 + _ = _
  rw [Ideal.ofBits_zero_f32, zero_add]
  refine Finset.sum_congr rfl fun k _ => ?_
  have hi : (by decide : S8192x128.Reduces [1] S8192).lift (ix1 r) k = ix2 r k :=
    funext fun a => Fin.ext (by match a with | ⟨0, _⟩ => rfl | ⟨1, _⟩ => rfl)
  rw [hi]
  rfl

theorem V_emb (c : Dev nD) (r : Fin 8192) (k : Fin 128) :
    (V m c main_v0 : S8192x128.Idx → EReal) (ix2 r k) = (m ((c : Thread nD τ).loc main_arg0) : Cert.Triplet.SE.Idx → EReal) (ix2 r k) := by
  rw [V_v0]; rfl

theorem V_sqcol (c : Dev nD) (r : Fin 8192) :
    (V m c main_v3 : S8192x1.Idx → EReal) (ix2 r (0 : Fin 1)) = Cert.Triplet.sq (m ((c : Thread nD τ).loc main_arg0) : Cert.Triplet.SE.Idx → EReal) r := by
  rw [V_v3]; exact sqcol_at _ r

theorem V_sqrow (c : Dev nD) (r : Fin 8192) :
    (V m c main_v4 : S1x8192.Idx → EReal) (ix2 (0 : Fin 1) r) = Cert.Triplet.sq (m ((c : Thread nD τ).loc main_arg0) : Cert.Triplet.SE.Idx → EReal) r := by
  rw [V_v4, shapeCast_apply _ shapeCasts_S8192x1_S1x8192 (ix2 (0 : Fin 1) r) (ix2 r (0 : Fin 1)) (by
    rw [Shape.rowMajor_val_two, Shape.rowMajor_val_two]
    show r.val * 1 + 0 = 0 * 8192 + r.val
    omega)]
  exact sqcol_at _ r

theorem V_lcol (c : Dev nD) (r : Fin 8192) :
    (V m c main_v5 : S8192x1.Idx → BitVec 32) (ix2 r (0 : Fin 1)) = (m ((c : Thread nD τ).loc main_arg1) : Cert.Triplet.SL.Idx → BitVec 32) (ix1 r) := by
  rw [V_v5]
  exact shapeCast_apply _ shapeCasts_S8192_S8192x1 (ix2 r (0 : Fin 1)) (ix1 r) (by
    rw [Shape.rowMajor_val_one, Shape.rowMajor_val_two]
    show r.val = r.val * 1 + 0
    omega)

theorem V_lrow (c : Dev nD) (r : Fin 8192) :
    (V m c main_v6 : S1x8192.Idx → BitVec 32) (ix2 (0 : Fin 1) r) = (m ((c : Thread nD τ).loc main_arg1) : Cert.Triplet.SL.Idx → BitVec 32) (ix1 r) := by
  rw [V_v6]
  exact shapeCast_apply _ shapeCasts_S8192_S1x8192 (ix2 (0 : Fin 1) r) (ix1 r) (by
    rw [Shape.rowMajor_val_one, Shape.rowMajor_val_two]
    show r.val = 0 * 8192 + r.val
    omega)

/-! ## The six blocks of a point, entry by entry -/

theorem blk0 (c : Dev nD) (t : Fin cfg0.N) (p : Fin 512) (k : Fin 128) :
    (iblk m c 0 t : Vec Ideal S512x128 .bf16) (ix2 p k) = (m ((c : Thread nD τ).loc main_arg0) : Cert.Triplet.SE.Idx → EReal) (ix2 (rowOf t p) k) := by
  rw [iblk0_apply m c t (ix2 p k) (ix2 (rowOf t p) k) rfl rfl]
  exact V_emb m c (rowOf t p) k

theorem blk1 (c : Dev nD) (t : Fin cfg0.N) (r : Fin 8192) (k : Fin 128) :
    (iblk m c 1 t : Vec Ideal S8192x128 .bf16) (ix2 r k) = (m ((c : Thread nD τ).loc main_arg0) : Cert.Triplet.SE.Idx → EReal) (ix2 r k) := by
  rw [iblk1_apply m c t (ix2 r k)]
  exact V_emb m c r k

theorem blk2 (c : Dev nD) (t : Fin cfg0.N) (p : Fin 512) :
    (iblk m c 2 t : Vec Ideal S512x1 .f32) (ix2 p (0 : Fin 1)) = Cert.Triplet.sq (m ((c : Thread nD τ).loc main_arg0) : Cert.Triplet.SE.Idx → EReal) (rowOf t p) := by
  rw [iblk2_apply m c t (ix2 p (0 : Fin 1)) (ix2 (rowOf t p) (0 : Fin 1)) rfl rfl]
  exact V_sqcol m c (rowOf t p)

theorem blk3 (c : Dev nD) (t : Fin cfg0.N) (r : Fin 8192) :
    (iblk m c 3 t : Vec Ideal S1x8192 .f32) (ix2 (0 : Fin 1) r) = Cert.Triplet.sq (m ((c : Thread nD τ).loc main_arg0) : Cert.Triplet.SE.Idx → EReal) r := by
  rw [iblk3_apply m c t (ix2 (0 : Fin 1) r)]
  exact V_sqrow m c r

theorem blk4 (c : Dev nD) (t : Fin cfg0.N) (p : Fin 512) :
    (iblk m c 4 t : Vec Ideal S512x1 .i32) (ix2 p (0 : Fin 1)) = (m ((c : Thread nD τ).loc main_arg1) : Cert.Triplet.SL.Idx → BitVec 32) (ix1 (rowOf t p)) := by
  rw [iblk4_apply m c t (ix2 p (0 : Fin 1)) (ix2 (rowOf t p) (0 : Fin 1)) rfl rfl]
  exact V_lcol m c (rowOf t p)

theorem blk5 (c : Dev nD) (t : Fin cfg0.N) (r : Fin 8192) :
    (iblk m c 5 t : Vec Ideal S1x8192 .i32) (ix2 (0 : Fin 1) r) = (m ((c : Thread nD τ).loc main_arg1) : Cert.Triplet.SL.Idx → BitVec 32) (ix1 r) := by
  rw [iblk5_apply m c t (ix2 (0 : Fin 1) r)]
  exact V_lrow m c r

end AtIdeal

end Cert.KernelIdeal.Blocks

end
-- ==== Proof.KI.OutArr.lean ====
/-
  The output array after the region. Only the last column block of each row block writes the output window back, and
  the block it writes is rows 512 i … 512 i + 511 of the column; the sixteen written blocks tile the 8192 rows, row r
  being covered by the point 8 (r / 512) + 7. So if every written block holds a function G of its global rows, the
  array ends holding G row by row.
-/
import proofs.«151407_j52183852646786_2_alg».proof.Proof.KI.Blocks

set_option maxRecDepth 16384

noncomputable section

namespace Cert.KernelIdeal.Blocks

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

variable (m : (ℓ : Loc nD τ sig) → Buf (Elt Ideal) ℓ)

/-- A row of the column is in the block of point `t` iff it is one of the 512 rows of `t`'s row block. -/
theorem mem_blk6 (t : Fin cfg0.N) (i : S8192x1.Idx) :
    i ∈ ((cfg0.win 6).blk t).view.set
      ↔ ∀ a : Fin 2, win0_6.index t a * S512x1.size a ≤ (i a).val ∧ (i a).val < win0_6.index t a * S512x1.size a + S512x1.size a := by
  show i ∈ ((View.whole main_v7).slice (win0_6.rect t)).set ↔ _
  rw [View.set_slice_whole, Rect.mem_set_unit]
  exact Iff.rfl

/-- What a writing point writes back, when its block holds `G` of its global rows: block `t` of `G` row by row. -/
theorem flushed6_eq (c : Dev nD) (G : Fin 8192 → EReal) (t : Fin cfg0.N)
    (hG : ∀ p : Fin 512, outAt m c t (ix2 p (0 : Fin 1)) = G (rowOf t p)) :
    (dats m 0 c).flushed 6 t
      = ((cfg0.win 6).blk t).view.read (Elt Ideal) (fun x : S8192x1.Idx => G ⟨(x 0).val, idx2_lt0 x⟩) := by
  show (cfg0.win 6).cut (grid0.coords t) ((dats m 0 c).after 6 t) = _
  rw [after0_6]
  obtain ⟨h0, h1⟩ := idx6 t
  funext y
  have hy0 : (y 0).val < 512 := (y 0).isLt
  have hy1 : (y 1).val < 1 := (y 1).isLt
  have hy : (cfg0.win 6).xinj (grid0.coords t) y = ix2 (⟨(y 0).val, hy0⟩ : Fin 512) (0 : Fin 1) :=
    funext fun a => Fin.ext (by
      match a with
      | ⟨0, _⟩ => rfl
      | ⟨1, _⟩ => show (y 1).val = 0; omega)
  show outAt m c t ((cfg0.win 6).xinj (grid0.coords t) y) = G ⟨(((cfg0.win 6).blk t).view.emb y 0).val, _⟩
  rw [hy, hG]
  refine congrArg G (Fin.ext ?_)
  show 512 * (t.val / 8) + (y 0).val = win0_6.index t 0 * 512 + 1 * (y 0).val
  rw [h0]
  omega

/-- THE OUTPUT ARRAY: if at every writing point the output block holds `G` of its global rows, the array ends holding
    `G` row by row. -/
theorem out_array (c : Dev nD) (G : Fin 8192 → EReal)
    (hG : ∀ t : Fin cfg0.N, t.val % 8 = 7 → ∀ p : Fin 512, outAt m c t (ix2 p (0 : Fin 1)) = G (rowOf t p)) :
    ((dats m 0 c).arrAt 6 cfg0.N : S8192x1.Idx → EReal) = fun x => G ⟨(x 0).val, idx2_lt0 x⟩ :=
  (dats m 0 c).arrAt_eq_of_cover 6 (fun x : S8192x1.Idx => G ⟨(x 0).val, idx2_lt0 x⟩)
    (fun t hf => flushed6_eq m c G t (hG t ((flush0_6 t).mp hf)))
    (fun i => by
      have hN : cfg0.N = 128 := N_0
      have hi0 : (i 0).val < 8192 := (i 0).isLt
      have hi1 : (i 1).val < 1 := (i 1).isLt
      refine ⟨⟨8 * ((i 0).val / 512) + 7, by omega⟩, (flush0_6 _).mpr (by show (8 * ((i 0).val / 512) + 7) % 8 = 7; omega), ?_⟩
      rw [mem_blk6]
      obtain ⟨h0, h1⟩ := idx6 (⟨8 * ((i 0).val / 512) + 7, by omega⟩ : Fin cfg0.N)
      intro a
      match a with
      | ⟨0, _⟩ =>
        show win0_6.index _ 0 * 512 ≤ (i 0).val ∧ (i 0).val < win0_6.index _ 0 * 512 + 512
        rw [h0]
        show (8 * ((i 0).val / 512) + 7) / 8 * 512 ≤ (i 0).val ∧ (i 0).val < (8 * ((i 0).val / 512) + 7) / 8 * 512 + 512
        omega
      | ⟨1, _⟩ =>
        show win0_6.index _ 1 * 1 ≤ (i 1).val ∧ (i 1).val < win0_6.index _ 1 * 1 + 1
        rw [h1]
        omega)

end Cert.KernelIdeal.Blocks

end
-- ==== Proof.MeanCol.lean ====
import proofs.«151407_j52183852646786_2_alg».proof.Proof.Gen.KernelIdeal
import proofs.«151407_j52183852646786_2_alg».proof.Proof.Spec

/-!
# The mean of a column

The kernel leaves one hinge per row in a column `[8192, 1]`; the host then sums the column from `0` and divides by the
word of `8192`. Read over the extended reals, that is the mean of the column's entries taken row by row.
-/

noncomputable section

open scoped BigOperators

namespace Cert.Triplet

open Idealize.ShloMosaic Idealize.ShloMosaic.ValueIdx Cert.KernelIdeal Cert.KernelIdeal.Facts₀

/-- The sum over a `[8192, 1]` column is the sum over its rows. -/
theorem sum_col (o : S8192x1.Idx → EReal) : ∑ i : S8192x1.Idx, o i = ∑ r : Fin 8192, o (ix2 r 0) := by
  rw [sum_idx2 (n0 := 8192) (n1 := 1) o]
  exact Finset.sum_congr rfl fun r _ => Fin.sum_univ_one _

/-- The host's sum of the column from `0` divided by the word of `8192` is the mean of the column's entries. -/
theorem tail_eq (o : FVec Ideal S8192x1 .f32) :
    Host.divf (F := Ideal)
        (Host.reduceAdd (F := Ideal) o (constant (F := Ideal) S_ .f32 0x00000000#32) reducesTo_S8192x1_S_d0_1 h_S_)
        (constant (F := Ideal) S_ .f32 0x46000000#32)
      = fun _ => mean (fun r => o (ix2 r 0)) := by
  funext i
  show Ideal.div (Host.reduceAdd (F := Ideal) o (constant (F := Ideal) S_ .f32 0x00000000#32) reducesTo_S8192x1_S_d0_1 h_S_ i)
      (Ideal.ofBits .f32 0x46000000#32) = _
  simp only [Host.reduceAdd, Ideal.hostReduceAdd_def]
  rw [Ideal.hostReduceAdd_total reducesTo_S8192x1_S_d0_1 (fun b => b.elim0) o _ i, constant_apply, Ideal.ofBits_zero_f32,
    zero_add, sum_col]
  rfl

end Cert.Triplet

end
-- ==== Proof.KI.KernelValue.lean ====
/-
  The kernel's result at the ideal values: the mean over the 8192 rows of the specification's hinge.

  Every last column block leaves, in the output block, the hinge of its 512 global rows; the other 112 points write
  nothing back, so the output array ends holding the hinge row by row; the host's sum of
  that column divided by the word of 8192 is the mean.
-/
import proofs.«151407_j52183852646786_2_alg».proof.Proof.KI.ScrValue
import proofs.«151407_j52183852646786_2_alg».proof.Proof.KI.Blocks
import proofs.«151407_j52183852646786_2_alg».proof.Proof.KI.OutArr
import proofs.«151407_j52183852646786_2_alg».proof.Proof.MeanCol

noncomputable section

namespace Cert.KernelIdeal.KernelValue

open Idealize.ShloMosaic Idealize.ShloMosaic.TcCoe Idealize.SL.Sem
open Idealize.ShloMosaic.Pipeline (Dat)
open Idealize.ShloMosaic.ValueIdx
open Cert.KernelIdeal Cert.KernelIdeal.Hand Cert.KernelIdeal.Facts₀

/-- The output array after the last point holds the specification's hinge, row by row. -/
theorem out_hinge (m : (ℓ : Loc nD τ sig) → Buf (Elt Ideal) ℓ) (c : Dev nD) :
    ((dats m 0 c).arrAt 6 cfg0.N : S8192x1.Idx → EReal)
      = fun x => Cert.Triplet.hinge (m ((c : Thread nD τ).loc main_arg0) : Cert.Triplet.SE.Idx → EReal)
          (m ((c : Thread nD τ).loc main_arg1) : Cert.Triplet.SL.Idx → BitVec 32) ⟨(x 0).val, idx2_lt0 x⟩ :=
  Blocks.out_array m c
    (fun r => Cert.Triplet.hinge (m ((c : Thread nD τ).loc main_arg0) : Cert.Triplet.SE.Idx → EReal)
      (m ((c : Thread nD τ).loc main_arg1) : Cert.Triplet.SL.Idx → BitVec 32) r)
    (fun t ht p => ScrValue.out_value m c _ _ (Blocks.blk0 m c) (Blocks.blk1 m c) (Blocks.blk2 m c) (Blocks.blk3 m c)
      (Blocks.blk4 m c) (Blocks.blk5 m c) t ht p)

/-- The kernel's result: the host's mean of the output array is the mean of the hinge over the rows. -/
theorem kernel_value (m : (ℓ : Loc nD τ sig) → Buf (Elt Ideal) ℓ) (c : Dev nD) :
    Host.divf (F := Ideal)
        (Host.reduceAdd (F := Ideal) ((dats m 0 c).arrAt 6 cfg0.N : FVec Ideal S8192x1 .f32)
          (constant (F := Ideal) S_ .f32 0x00000000#32) reducesTo_S8192x1_S_d0_1 h_S_)
        (constant (F := Ideal) S_ .f32 0x46000000#32)
      = fun _ => Cert.Triplet.mean (fun r => Cert.Triplet.hinge (m ((c : Thread nD τ).loc main_arg0) : Cert.Triplet.SE.Idx → EReal)
          (m ((c : Thread nD τ).loc main_arg1) : Cert.Triplet.SL.Idx → BitVec 32) r) := by
  have hA := out_hinge m c
  generalize ((dats m 0 c).arrAt 6 cfg0.N : FVec Ideal S8192x1 .f32) = A at hA ⊢
  subst hA
  exact (Cert.Triplet.tail_eq _).trans rfl

end Cert.KernelIdeal.KernelValue

end
-- ==== Proof.RefValue.lean ====
import proofs.«151407_j52183852646786_2_alg».proof.Proof.Gen.ReferenceIdeal.Read
import proofs.«151407_j52183852646786_2_alg».proof.Proof.Spec

/-!
# The reference computes the specification

Read over the extended reals, entry by entry: the reference's distance matrix is `dist`; multiplying it by the `0/1`
mask "same label, off the diagonal" gives `posv` (a product with `1` is the factor, a product with `0` is `0`);
selecting it against `+∞` where the labels agree gives `negv`; the row reductions from `-∞` and `+∞` are `P` and `N`;
and the tail is the mean of the hinges.
-/

noncomputable section

open scoped BigOperators

namespace Cert.ReferenceIdeal.RefValue

open Cert.ReferenceIdeal Cert.ReferenceIdeal.Gen Cert.ReferenceIdeal.Read Cert.Triplet
open Idealize.ShloMosaic Idealize.ShloMosaic.ValueIdx

/-! ## Words -/

/-- Two row numbers below 8192 are the same word exactly when they are the same row. -/
theorem eye_bit (a b : Fin 8192) :
    IntOp.cmpi .eq (IntOp.addi (BitVec.ofNat 32 a.val) 0#32) (BitVec.ofNat 32 b.val) = BitVec.ofBool (decide (a = b)) := by
  by_cases h : a = b
  · subst h; simp [IntOp.cmpi, IntOp.addi]
  · have hne : BitVec.ofNat 32 a.val ≠ BitVec.ofNat 32 b.val := fun e => h (Fin.ext (by
      have := congrArg BitVec.toNat e
      simp only [BitVec.toNat_ofNat] at this
      omega))
    have hb : (BitVec.ofNat 32 a.val == BitVec.ofNat 32 b.val) = false := beq_eq_false_iff_ne.mpr hne
    simp [IntOp.cmpi, IntOp.addi, hb, h]

/-- A product with the `0/1` value of an exclusive or of two bits. -/
theorem mul_mask (d : EReal) (p q : Bool) :
    d * (((IntOp.xori (BitVec.ofBool p) (BitVec.ofBool q)).toNat : ℝ) : EReal) = if (p != q) = true then d else 0 := by
  cases p <;> cases q <;> simp [IntOp.xori]

/-- A select on the complement of a bit. -/
theorem select_not (d t : EReal) (p : Bool) :
    Scalar.select (~~~(BitVec.ofBool p)) d t = if p = true then t else d := by
  cases p <;> simp [Scalar.select]

/-! ## The distance matrix -/

/-- The row sums of squares. -/
theorem sq_at (e : FVec Ideal S8192x128 .f32) (j : S8192.Idx) : val_main_v1 (F := Ideal) e j = sq e (j 0) := by
  rw [val_main_v1_apply, val_main_cst_apply]
  show Ideal.ofBits .f32 0x00000000#32 + _ = _
  rw [Ideal.ofBits_zero_f32, zero_add]
  refine Finset.sum_congr rfl fun k _ => ?_
  rw [val_main_v0_apply]
  have hi : idx_main_v1 j k = ix2 (j 0) k := funext fun a => Fin.ext (by match a with | ⟨0, _⟩ => rfl | ⟨1, _⟩ => rfl)
  rw [hi]
  rfl

/-- The Gram matrix. -/
theorem gram_at (e : FVec Ideal S8192x128 .f32) (i : S8192x8192.Idx) : val_main_v3 (F := Ideal) e i = gram e (i 0) (i 1) := by
  rw [val_main_v3_apply]
  refine Finset.sum_congr rfl fun k _ => ?_
  rw [val_main_v2_apply]
  have hl : lidx_main_v3 i k = ix2 (i 0) k := funext fun a => Fin.ext (by match a with | ⟨0, _⟩ => rfl | ⟨1, _⟩ => rfl)
  have hr : idx_main_v2 (ridx_main_v3 i k) = ix2 (i 1) k := funext fun a => Fin.ext (by match a with | ⟨0, _⟩ => rfl | ⟨1, _⟩ => rfl)
  rw [hl, hr]
  rfl

/-- The distance matrix. -/
theorem dist_at (e : FVec Ideal S8192x128 .f32) (r c : Fin 8192) : val_main_v16 (F := Ideal) e (ix2 r c) = dist e r c := by
  rw [val_main_v16_apply, val_main_v15_apply, val_main_v13_apply, val_main_v11_apply, val_main_v8_apply, val_main_v10_apply,
    val_main_v6_apply, val_main_v4_apply, val_main_v7_apply, val_main_v5_apply, sq_at, sq_at, gram_at, val_main_v9_apply,
    val_main_cst_0_apply, val_main_v12_apply, val_main_cst_1_apply, val_main_v14_apply, val_main_cst_2_apply]
  show Ideal.sqrt (max (sq e r + sq e c - Ideal.ofBits .f32 0x40000000#32 * gram e r c) (Ideal.ofBits .f32 0x00000000#32)
    + Ideal.ofBits .f32 0x2B8CBCCC#32) = _
  rw [Ideal.ofBits_zero_f32]
  rfl

/-! ## The masks -/

/-- The bit "rows `r` and `c` carry the same label". -/
theorem same_at (l : IVec S8192 32) (r c : Fin 8192) :
    val_main_v21 (F := Ideal) l (ix2 r c) = BitVec.ofBool (l (ix1 r) == l (ix1 c)) := by
  rw [val_main_v21_apply, val_main_v19_apply, val_main_v17_apply, val_main_v20_apply, val_main_v18_apply]
  have h0 : idx_main_v17 (idx_main_v19 (ix2 r c)) = ix1 r := funext fun a => Fin.ext (by match a with | ⟨0, _⟩ => rfl)
  have h1 : idx_main_v18 (idx_main_v20 (ix2 r c)) = ix1 c := funext fun a => Fin.ext (by match a with | ⟨0, _⟩ => rfl)
  rw [h0, h1]
  rfl

/-- The bit "on the diagonal". -/
theorem eye_at (r c : Fin 8192) : val_main_v26 (F := Ideal) (ix2 r c) = BitVec.ofBool (decide (r = c)) := by
  rw [val_main_v26_apply, val_main_v25_apply, val_main_v22_apply, val_main_v24_apply, val_main_c_apply, val_main_v23_apply]
  exact eye_bit r c

/-- The masked distances whose row maximum is the furthest positive. -/
theorem pos_at (e : FVec Ideal S8192x128 .f32) (l : IVec S8192 32) (r c : Fin 8192) :
    val_main_v30 (F := Ideal) e l (ix2 r c) = posv e l r c := by
  rw [val_main_v30_apply, val_main_v29_apply, val_main_v27_apply, dist_at, same_at, eye_at]
  show dist e r c * (((IntOp.xori _ _).toNat : ℝ) : EReal) = _
  rw [mul_mask]
  unfold posv
  by_cases hrc : r = c
  · subst hrc; simp
  · by_cases hl : l (ix1 r) = l (ix1 c)
    · simp [hrc, hl]
    · simp [hrc, hl]

/-- The selected distances whose row minimum is the closest negative. -/
theorem neg_at (e : FVec Ideal S8192x128 .f32) (l : IVec S8192 32) (r c : Fin 8192) :
    val_main_v32 (F := Ideal) e l (ix2 r c) = negv e l r c := by
  rw [val_main_v32_apply, val_main_v28_apply, val_main_call0_v1_apply, val_main_call0_v0_apply, val_main_cst_4_apply, dist_at,
    same_at, select_not]
  show (if _ then Ideal.ofBits .f32 0x7F800000#32 else _) = _
  rw [ofBits_pinf]
  unfold negv
  by_cases hl : l (ix1 r) = l (ix1 c)
  · simp [hl]
  · simp [hl]

/-! ## The row reductions -/

/-- The row maximum from `-∞` is the furthest positive. -/
theorem P_at (e : FVec Ideal S8192x128 .f32) (l : IVec S8192 32) (r : Fin 8192) :
    val_main_v31 (F := Ideal) e l (ix1 r) = P e l r := by
  unfold val_main_v31
  rw [Host.reduce_eq_fold_single FloatOps.maximumf _ _ reducesTo_S8192x8192_S8192_d1
    (by decide : S8192x8192.Reduces [1] S8192) h_S_ (ix1 r)]
  show Finset.fold max (Ideal.ofBits .f32 0xFF800000#32)
    (fun k : Fin 8192 => val_main_v30 (F := Ideal) e l ((by decide : S8192x8192.Reduces [1] S8192).lift (ix1 r) k)) Finset.univ = _
  rw [ofBits_ninf]
  refine Finset.fold_congr fun k _ => ?_
  have hk : (by decide : S8192x8192.Reduces [1] S8192).lift (ix1 r) k = ix2 r k :=
    funext fun a => Fin.ext (by match a with | ⟨0, _⟩ => rfl | ⟨1, _⟩ => rfl)
  rw [hk, pos_at]

/-- The row minimum from `+∞` is the closest negative. -/
theorem N_at (e : FVec Ideal S8192x128 .f32) (l : IVec S8192 32) (r : Fin 8192) :
    val_main_v33 (F := Ideal) e l (ix1 r) = N e l r := by
  unfold val_main_v33
  rw [Host.reduce_eq_fold_single FloatOps.minimumf _ _ reducesTo_S8192x8192_S8192_d1
    (by decide : S8192x8192.Reduces [1] S8192) h_S_ (ix1 r)]
  show Finset.fold min (Ideal.ofBits .f32 0x7F800000#32)
    (fun k : Fin 8192 => val_main_v32 (F := Ideal) e l ((by decide : S8192x8192.Reduces [1] S8192).lift (ix1 r) k)) Finset.univ = _
  rw [ofBits_pinf]
  refine Finset.fold_congr fun k _ => ?_
  have hk : (by decide : S8192x8192.Reduces [1] S8192).lift (ix1 r) k = ix2 r k :=
    funext fun a => Fin.ext (by match a with | ⟨0, _⟩ => rfl | ⟨1, _⟩ => rfl)
  rw [hk, neg_at]

/-! ## The hinge and the mean -/

/-- The hinge of a row. -/
theorem hinge_at (e : FVec Ideal S8192x128 .f32) (l : IVec S8192 32) (r : Fin 8192) :
    val_main_v38 (F := Ideal) e l (ix1 r) = hinge e l r := by
  rw [val_main_v38_apply, val_main_v36_apply, val_main_v34_apply, P_at, N_at, val_main_v35_apply, val_main_cst_6_apply,
    val_main_v37_apply, val_main_cst_7_apply]
  show max (P e l r - N e l r + Ideal.ofBits .f32 0x3F800000#32) (Ideal.ofBits .f32 0x00000000#32) = _
  rw [Ideal.ofBits_zero_f32]
  rfl

/-- The sum over the rank-1 index set of the rows is the sum over the rows. -/
def rowEquiv : (⟨1, ![8192]⟩ : Shape).Idx ≃ Fin 8192 where
  toFun j := j 0
  invFun r := ix1 r
  left_inv j := (eq_ix1 j).symm
  right_inv _ := rfl

theorem sum_rows (h : S8192.Idx → EReal) : ∑ j : S8192.Idx, h j = ∑ r : Fin 8192, h (ix1 r) := by
  rw [← Equiv.sum_comp rowEquiv.symm h]
  rfl

/-- THE REFERENCE IS THE SPECIFICATION: its result is the mean of the hinges. -/
theorem ref_eq (e : FVec Ideal S8192x128 .f32) (l : IVec S8192 32) :
    val_main_v40 (F := Ideal) e l = fun _ => mean (fun r => hinge e l r) := by
  funext i
  rw [val_main_v40_apply, val_main_v39_apply, val_main_cst_8_apply, val_main_cst_9_apply]
  show Ideal.div (Ideal.ofBits .f32 0x00000000#32 + ∑ j : S8192.Idx, val_main_v38 (F := Ideal) e l j)
    (Ideal.ofBits .f32 0x46000000#32) = _
  rw [Ideal.ofBits_zero_f32, zero_add, sum_rows]
  simp only [hinge_at]
  rfl

end Cert.ReferenceIdeal.RefValue

end
-- ==== Proof.lean ====
/-
  The batch-hard triplet loss of 8192 embeddings of width 128 with integer labels. For a row r let P r be the
  largest distance from r to a different row of the same label (0 when there is none: the diagonal entry counts as
  0) and N r the smallest distance from r to a row of another label (+inf when there is none), the distance being
  sqrt(max(|e r|² + |e c|² − 2 <e r, e c>, 0) + eps). Both programs return the mean over r of max(P r − N r + 1, 0).
  The kernel tiles the 8192 x 8192 distances into 16 x 8 tiles of 512 x 1024, keeps P and N as running columns
  across the eight tiles of a row block (P started at 0, N at +inf) and writes the hinge after the last tile; the
  reference forms all distances at once, masks by multiplying with the 0/1 mask, and reduces each row from −inf and
  +inf. Over the extended reals the two agree: a change of float format is the identity, a maximum (minimum) over a
  row is the maximum (minimum) of the maxima (minima) over its eight tiles, starting the running maximum at 0
  changes nothing because the diagonal term is 0, and d · 1 = d, d · 0 = 0 on every extended real. No finiteness of
  the inputs is used.

  The frames of the two kernel programs are proved by running the body at each grid point in its three cases (the
  first tile of a row block, a middle tile, the last tile) and launching the pipeline with the one array that two
  windows read held in two halves; the reference's frame is its run.
-/
import proofs.«151407_j52183852646786_2_alg».proof.Defs
import proofs.«151407_j52183852646786_2_alg».proof.Proof.Gen.Kernel
import proofs.«151407_j52183852646786_2_alg».proof.Proof.Gen.KernelIdeal
import proofs.«151407_j52183852646786_2_alg».proof.Proof.Gen.ReferenceIdeal
import proofs.«151407_j52183852646786_2_alg».proof.Proof.Gen.Pre_finite_inputs
import proofs.«151407_j52183852646786_2_alg».proof.Proof.Gen.ReferenceIdeal.Read
import proofs.«151407_j52183852646786_2_alg».proof.Proof.K.Launch2
import proofs.«151407_j52183852646786_2_alg».proof.Proof.KI.Launch2
import proofs.«151407_j52183852646786_2_alg».proof.Proof.KI.KernelValue
import proofs.«151407_j52183852646786_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its two argument arrays as launched. -/
theorem frame_k : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Hand.run_main (F := Bits) m ρ)

/-- So does the kernel read over the extended reals. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Hand.run_main (F := Ideal) m ρ)

/-- The reference's frame is its run with the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The kernel's result over the extended reals: the mean of the hinges of its argument arrays. -/
theorem kernel_result (m : (ℓ : Loc Cert.KernelIdeal.nD Cert.KernelIdeal.τ Cert.KernelIdeal.sig) → Buf (Elt Ideal) ℓ) (c : Dev Cert.KernelIdeal.nD) :
    Cert.KernelIdeal.Hand.tailVal (F := Ideal) ((Cert.KernelIdeal.Hand.dats m 0 c).arrAt 6 Cert.KernelIdeal.cfg0.N)
      = fun (_ : Cert.KernelIdeal.S_.Idx) => Cert.Triplet.mean (fun r => Cert.Triplet.hinge
          (m ((c : Thread Cert.KernelIdeal.nD Cert.KernelIdeal.τ).loc Cert.KernelIdeal.main_arg0) : Cert.Triplet.SE.Idx → EReal)
          (m ((c : Thread Cert.KernelIdeal.nD Cert.KernelIdeal.τ).loc Cert.KernelIdeal.main_arg1) : Cert.Triplet.SL.Idx → BitVec 32) r) := by
  unfold Cert.KernelIdeal.Hand.tailVal
  exact Cert.KernelIdeal.KernelValue.kernel_value m c

/-- Run from memories that agree on the arguments, both idealized programs end with the mean of the hinges. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => fun _ => Cert.Triplet.mean (fun r => Cert.Triplet.hinge
      (m ((c : Thread Cert.KernelIdeal.nD Cert.KernelIdeal.τ).loc Cert.KernelIdeal.main_arg0) : Cert.Triplet.SE.Idx → EReal)
      (m ((c : Thread Cert.KernelIdeal.nD Cert.KernelIdeal.τ).loc Cert.KernelIdeal.main_arg1) : Cert.Triplet.SL.Idx → BitVec 32) r), ?_, ?_⟩
  · exact (θ_run Cert.KernelIdeal.defs _ _).mono (fun _ h c => ⟨(h c).1.trans (kernel_result m c), (h c).2.1, (h c).2.2⟩)
      (Cert.KernelIdeal.Hand.run_main (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v40_eq, Cert.ReferenceIdeal.RefValue.ref_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
